-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S1600000 : Shape := ⟨1, ![1600000]⟩
abbrev S65x32 : Shape := ⟨2, ![65, 32]⟩
abbrev S32 : Shape := ⟨1, ![32]⟩
abbrev S32x32 : Shape := ⟨2, ![32, 32]⟩
abbrev S3200000 : Shape := ⟨1, ![3200000]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S65x32 : S_.BroadcastsInDim S65x32 (![] : Fin 0 → Fin S65x32.rank)
  reducesTo_S65x32_S_d0_1 : S65x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_

variable [Facts]

def fn_part2 {F : FTy → Type} [FloatOps F] (main_arg7 : FVec F S32 .f32) (main_v33 : IVec S_ 1) : IVec S_ 1 :=
  let main_v34 : FVec F S32 .f32 := Host.absf main_arg7
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  main_v38

def fn_part1 {F : FTy → Type} [FloatOps F] (main_arg4 : FVec F S32x32 .f32) (main_arg5 : FVec F S32 .f32) (main_arg6 : FVec F S32x32 .f32) (main_arg7 : FVec F S32 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32x32 .f32 := Host.absf main_arg4
  let main_cst_6 : FVec F S_ .f32 := constant S_ .f32 0x7F800000#32
  let main_v20 : FVec F S32x32 .f32 := broadcastInDim S32x32 ![] bcast_S_S32x32 main_cst_6
  let main_v21 : IVec S32x32 1 := cmpf .olt main_v19 main_v20
  let main_c_7 : IVec S_ 1 := constantI S_ 1 1#1
  let main_v22 : IVec S_ 1 := (fun x v => Host.reduce IntOp.andi x v reducesTo_S32x32_S_d0_1 h_S_) main_v21 main_c_7
  let main_v23 : IVec S_ 1 := andi main_v18 main_v22
  let main_v24 : FVec F S32 .f32 := Host.absf main_arg5
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32x32 .f32 := Host.absf main_arg6
  let main_cst_10 : FVec F S_ .f32 := constant S_ .f32 0x7F800000#32
  let main_v30 : FVec F S32x32 .f32 := broadcastInDim S32x32 ![] bcast_S_S32x32 main_cst_10
  let main_v31 : IVec S32x32 1 := cmpf .olt main_v29 main_v30
  let main_c_11 : IVec S_ 1 := constantI S_ 1 1#1
  let main_v32 : IVec S_ 1 := (fun x v => Host.reduce IntOp.andi x v reducesTo_S32x32_S_d0_1 h_S_) main_v31 main_c_11
  let main_v33 : IVec S_ 1 := andi main_v28 main_v32
  fn_part2 (F := F) main_arg7 main_v33

def fn {F : FTy → Type} [FloatOps F] (main_arg0 : FVec F S100000x32 .f32) (main_arg1 : FVec F S1600000 .f32) (main_arg2 : FVec F S65x32 .f32) (main_arg3 : FVec F S32 .f32) (main_arg4 : FVec F S32x32 .f32) (main_arg5 : FVec F S32 .f32) (main_arg6 : FVec F S32x32 .f32) (main_arg7 : FVec F S32 .f32) (main_arg8 : IVec S3200000 32) (main_arg9 : IVec S3200000 32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S1600000 .f32 := Host.absf main_arg1
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S65x32 .f32 := Host.absf main_arg2
  let main_cst_2 : FVec F S_ .f32 := constant S_ .f32 0x7F800000#32
  let main_v10 : FVec F S65x32 .f32 := broadcastInDim S65x32 ![] bcast_S_S65x32 main_cst_2
  let main_v11 : IVec S65x32 1 := cmpf .olt main_v9 main_v10
  let main_c_3 : IVec S_ 1 := constantI S_ 1 1#1
  let main_v12 : IVec S_ 1 := (fun x v => Host.reduce IntOp.andi x v reducesTo_S65x32_S_d0_1 h_S_) main_v11 main_c_3
  let main_v13 : IVec S_ 1 := andi main_v8 main_v12
  let main_v14 : FVec F S32 .f32 := Host.absf main_arg3
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg4 main_arg5 main_arg6 main_arg7 main_v13 main_v16
-- ==== Kernel.lean ====
abbrev S100000x32 : Shape := ⟨2, ![100000, 32]⟩
abbrev S1600000 : Shape := ⟨1, ![1600000]⟩
abbrev S65x32 : Shape := ⟨2, ![65, 32]⟩
abbrev S32 : Shape := ⟨1, ![32]⟩
abbrev S32x32 : Shape := ⟨2, ![32, 32]⟩
abbrev S3200000 : Shape := ⟨1, ![3200000]⟩
abbrev S_ : Shape := ⟨0, ![]⟩
abbrev S3200000x1 : Shape := ⟨2, ![3200000, 1]⟩
abbrev S3200000x32 : Shape := ⟨2, ![3200000, 32]⟩
abbrev S1x32 : Shape := ⟨2, ![1, 32]⟩
abbrev S4000x32 : Shape := ⟨2, ![4000, 32]⟩
abbrev S4000x1 : Shape := ⟨2, ![4000, 1]⟩
abbrev S4000 : Shape := ⟨1, ![4000]⟩

abbrev nBuf : Space → Nat
  | .hbm => 41
  | .vmem => 14
  | .smem => 0
  | _ => 0

abbrev bufTy : (tb : Table) → Fin (tcTables nBuf tb) → BufTy
  | .hbm, ⟨0, _⟩ => ⟨S100000x32, .f32⟩
  | .hbm, ⟨1, _⟩ => ⟨S1600000, .f32⟩
  | .hbm, ⟨2, _⟩ => ⟨S65x32, .f32⟩
  | .hbm, ⟨3, _⟩ => ⟨S32, .f32⟩
  | .hbm, ⟨4, _⟩ => ⟨S32x32, .f32⟩
  | .hbm, ⟨5, _⟩ => ⟨S32, .f32⟩
  | .hbm, ⟨6, _⟩ => ⟨S32x32, .f32⟩
  | .hbm, ⟨7, _⟩ => ⟨S32, .f32⟩
  | .hbm, ⟨8, _⟩ => ⟨S3200000, .i32⟩
  | .hbm, ⟨9, _⟩ => ⟨S3200000, .i32⟩
  | .hbm, ⟨10, _⟩ => ⟨S_, .i32⟩
  | .hbm, ⟨11, _⟩ => ⟨S3200000, .i32⟩
  | .hbm, ⟨12, _⟩ => ⟨S3200000, .i1⟩
  | .hbm, ⟨13, _⟩ => ⟨S_, .i32⟩
  | .hbm, ⟨14, _⟩ => ⟨S3200000, .i32⟩
  | .hbm, ⟨15, _⟩ => ⟨S3200000, .i32⟩
  | .hbm, ⟨16, _⟩ => ⟨S3200000, .i32⟩
  | .hbm, ⟨17, _⟩ => ⟨S3200000x1, .i32⟩
  | .hbm, ⟨18, _⟩ => ⟨S3200000x32, .f32⟩
  | .hbm, ⟨19, _⟩ => ⟨S_, .i32⟩
  | .hbm, ⟨20, _⟩ => ⟨S3200000, .i32⟩
  | .hbm, ⟨21, _⟩ => ⟨S3200000, .i1⟩
  | .hbm, ⟨22, _⟩ => ⟨S_, .i32⟩
  | .hbm, ⟨23, _⟩ => ⟨S3200000, .i32⟩
  | .hbm, ⟨24, _⟩ => ⟨S3200000, .i32⟩
  | .hbm, ⟨25, _⟩ => ⟨S3200000, .i32⟩
  | .hbm, ⟨26, _⟩ => ⟨S3200000x1, .i32⟩
  | .hbm, ⟨27, _⟩ => ⟨S3200000x32, .f32⟩
  | .hbm, ⟨28, _⟩ => ⟨S3200000, .f32⟩
  | .hbm, ⟨29, _⟩ => ⟨S3200000x1, .f32⟩
  | .hbm, ⟨30, _⟩ => ⟨S1x32, .f32⟩
  | .hbm, ⟨31, _⟩ => ⟨S1x32, .f32⟩
  | .hbm, ⟨32, _⟩ => ⟨S1x32, .f32⟩
  | .hbm, ⟨33, _⟩ => ⟨S3200000x32, .f32⟩
  | .hbm, ⟨34, _⟩ => ⟨S_, .f32⟩
  | .hbm, ⟨35, _⟩ => ⟨S100000x32, .f32⟩
  | .hbm, ⟨36, _⟩ => ⟨S3200000x1, .i32⟩
  | .hbm, ⟨37, _⟩ => ⟨S100000x32, .f32⟩
  | .hbm, ⟨38, _⟩ => ⟨S_, .f32⟩
  | .hbm, ⟨39, _⟩ => ⟨S100000x32, .f32⟩
  | .hbm, ⟨40, _⟩ => ⟨S100000x32, .f32⟩
  | .local _ .vmem, ⟨0, _⟩ => ⟨S4000x32, .f32⟩
  | .local _ .vmem, ⟨1, _⟩ => ⟨S4000x32, .f32⟩
  | .local _ .vmem, ⟨2, _⟩ => ⟨S4000x32, .f32⟩
  | .local _ .vmem, ⟨3, _⟩ => ⟨S4000x32, .f32⟩
  | .local _ .vmem, ⟨4, _⟩ => ⟨S4000x1, .f32⟩
  | .local _ .vmem, ⟨5, _⟩ => ⟨S4000x1, .f32⟩
  | .local _ .vmem, ⟨6, _⟩ => ⟨S65x32, .f32⟩
  | .local _ .vmem, ⟨7, _⟩ => ⟨S1x32, .f32⟩
  | .local _ .vmem, ⟨8, _⟩ => ⟨S32x32, .f32⟩
  | .local _ .vmem, ⟨9, _⟩ => ⟨S1x32, .f32⟩
  | .local _ .vmem, ⟨10, _⟩ => ⟨S32x32, .f32⟩
  | .local _ .vmem, ⟨11, _⟩ => ⟨S1x32, .f32⟩
  | .local _ .vmem, ⟨12, _⟩ => ⟨S4000x32, .f32⟩
  | .local _ .vmem, ⟨13, _⟩ => ⟨S4000x32, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c_1 : Ref sig .tc := ⟨.hbm, 19, rfl⟩
abbrev main_v7 : Ref sig .tc := ⟨.hbm, 20, rfl⟩
abbrev main_v8 : Ref sig .tc := ⟨.hbm, 21, rfl⟩
abbrev main_c_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_call0_cst : Ref sig .tc := ⟨.hbm, 38, rfl⟩
abbrev main_call0_v0 : Ref sig .tc := ⟨.hbm, 39, rfl⟩
abbrev main_v23 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![800], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S65x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S4000x32 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bcast_S_S3200000 : S_.BroadcastsInDim S3200000 (![] : Fin 0 → Fin S3200000.rank)
  bcast_S3200000_S3200000x1_0 : S3200000.BroadcastsInDim S3200000x1 (![0] : Fin 1 → Fin S3200000x1.rank)
  concatenates_S1600000_S1600000_S3200000_d0 : Shape.Concatenates [S1600000, S1600000] S3200000 0
  shapeCasts_S32_S1x32 : S32.ShapeCasts S1x32
  inb_S4000x32_S4000x32_0_0 : ∀ a, (![0, 0] : Fin 2 → Nat) a + S4000x32.size a ≤ S4000x32.size a
  h_S4000x32 : 0 < S4000x32.numel
  shapeCasts_S4000x32_S4000x32 : S4000x32.ShapeCasts S4000x32
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  bitsLt_bf16_f32 : FTy.bits .bf16 < FTy.bits .f32
  inb_S65x32_S65x32_0_0 : ∀ a, (![0, 0] : Fin 2 → Nat) a + S65x32.size a ≤ S65x32.size a
  h_S65x32 : 0 < S65x32.numel
  slices_S65x32_o0_0_S32x32 : S65x32.Slices ![0, 0] S32x32
  slices_S65x32_o32_0_S32x32 : S65x32.Slices ![32, 0] S32x32
  slices_S65x32_o64_0_S1x32 : S65x32.Slices ![64, 0] S1x32
  broadcasts_S4000x1_S4000x32 : S4000x1.Broadcasts S4000x32
  broadcasts_S1x32_S4000x32 : S1x32.Broadcasts S4000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  inb_S32x32_S32x32_0_0 : ∀ a, (![0, 0] : Fin 2 → Nat) a + S32x32.size a ≤ S32x32.size a
  h_S32x32 : 0 < S32x32.numel
  reduces_S4000x32_S4000 : S4000x32.Reduces [1] S4000
  shapeCasts_S4000_S4000x1 : S4000.ShapeCasts S4000x1
  bcast_S_S100000x32 : S_.BroadcastsInDim S100000x32 (![] : Fin 0 → Fin S100000x32.rank)
  gather_S100000x32_S3200000x1_S3200000x32_1_0_n_n_0_1_132_wf : GatherDims.WF S100000x32 S3200000x1 S3200000x32 [1] [0] [] [0] [] 1 ![1, 32]
  dot_S4000x32_S32x32_S4000x32_1_0_0_1_n_n_wf : DotDims.WF S4000x32 S32x32 S4000x32 [1] [0] [0] [1] [] []
  scatter_S100000x32_S3200000x1_S3200000x32_1_0_0_1_wf : ScatterDims.WF S100000x32 S3200000x1 S3200000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x32.size a ≤ S3200000x32.size a
  hwx0_0 : ∀ i : grid0.Coords, EltTy.bits .f32 = 32 ∨ (Rect.block (s := S3200000x32) S4000x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x32.size a ≤ S3200000x32.size a
  hwx0_1 : ∀ i : grid0.Coords, EltTy.bits .f32 = 32 ∨ (Rect.block (s := S3200000x32) S4000x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S3200000x1.size a
  hwx0_2 : ∀ i : grid0.Coords, EltTy.bits .f32 = 32 ∨ (Rect.block (s := S3200000x1) S4000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S65x32.size a ≤ S65x32.size a
  hwx0_3 : ∀ i : grid0.Coords, EltTy.bits .f32 = 32 ∨ (Rect.block (s := S65x32) S65x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x32.size a ≤ S1x32.size a
  hwx0_4 : ∀ i : grid0.Coords, EltTy.bits .f32 = 32 ∨ (Rect.block (s := S1x32) S1x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x32.size a ≤ S32x32.size a
  hwx0_5 : ∀ i : grid0.Coords, EltTy.bits .f32 = 32 ∨ (Rect.block (s := S32x32) S32x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x32.size a ≤ S1x32.size a
  hwx0_6 : ∀ i : grid0.Coords, EltTy.bits .f32 = 32 ∨ (Rect.block (s := S1x32) S1x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S32x32.size a ≤ S32x32.size a
  hwx0_7 : ∀ i : grid0.Coords, EltTy.bits .f32 = 32 ∨ (Rect.block (s := S32x32) S32x32.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x32.size a ≤ S1x32.size a
  hwx0_8 : ∀ i : grid0.Coords, EltTy.bits .f32 = 32 ∨ (Rect.block (s := S1x32) S1x32.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S4000x32.size a ≤ S3200000x32.size a
  hwx0_9 : ∀ i : grid0.Coords, EltTy.bits .f32 = 32 ∨ (Rect.block (s := S3200000x32) S4000x32.size (cc0_transform_9 i) (hinb0_9 i)).WholeWords (EltTy.packing .f32)

variable [Facts₀]

def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def dot_S4000x32_S32x32_S4000x32_1_0_0_1_n_n : DotDims S4000x32 S32x32 S4000x32 where
  lhsContracting := [1]
  rhsContracting := [0]
  lhsNonContracting := [0]
  rhsNonContracting := [1]
  lhsBatch := []
  rhsBatch := []
  wf := dot_S4000x32_S32x32_S4000x32_1_0_0_1_n_n_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf

abbrev win0_0 : Pipeline.Window sig grid0 :=
  Pipeline.Window.ofSpec (Memref.whole main_v6) S4000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S4000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S65x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S1x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S32x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v17) S1x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S32x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v18) S1x32.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v19) S4000x32.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S100000x32 : Shape := ⟨2, ![100000, 32]⟩
abbrev S1600000 : Shape := ⟨1, ![1600000]⟩
abbrev S65x32 : Shape := ⟨2, ![65, 32]⟩
abbrev S32 : Shape := ⟨1, ![32]⟩
abbrev S32x32 : Shape := ⟨2, ![32, 32]⟩
abbrev S3200000 : Shape := ⟨1, ![3200000]⟩
abbrev S_ : Shape := ⟨0, ![]⟩
abbrev S3200000x1 : Shape := ⟨2, ![3200000, 1]⟩
abbrev S3200000x32 : Shape := ⟨2, ![3200000, 32]⟩
abbrev S3200000x65 : Shape := ⟨2, ![3200000, 65]⟩
abbrev S1x32 : Shape := ⟨2, ![1, 32]⟩

abbrev nBuf : Space → Nat
  | .hbm => 67
  | .vmem => 0
  | .smem => 0
  | _ => 0

abbrev bufTy : (tb : Table) → Fin (tcTables nBuf tb) → BufTy
  | .hbm, ⟨0, _⟩ => ⟨S100000x32, .f32⟩
  | .hbm, ⟨1, _⟩ => ⟨S1600000, .f32⟩
  | .hbm, ⟨2, _⟩ => ⟨S65x32, .f32⟩
  | .hbm, ⟨3, _⟩ => ⟨S32, .f32⟩
  | .hbm, ⟨4, _⟩ => ⟨S32x32, .f32⟩
  | .hbm, ⟨5, _⟩ => ⟨S32, .f32⟩
  | .hbm, ⟨6, _⟩ => ⟨S32x32, .f32⟩
  | .hbm, ⟨7, _⟩ => ⟨S32, .f32⟩
  | .hbm, ⟨8, _⟩ => ⟨S3200000, .i32⟩
  | .hbm, ⟨9, _⟩ => ⟨S3200000, .i32⟩
  | .hbm, ⟨10, _⟩ => ⟨S_, .i32⟩
  | .hbm, ⟨11, _⟩ => ⟨S3200000, .i32⟩
  | .hbm, ⟨12, _⟩ => ⟨S3200000, .i1⟩
  | .hbm, ⟨13, _⟩ => ⟨S_, .i32⟩
  | .hbm, ⟨14, _⟩ => ⟨S3200000, .i32⟩
  | .hbm, ⟨15, _⟩ => ⟨S3200000, .i32⟩
  | .hbm, ⟨16, _⟩ => ⟨S3200000, .i32⟩
  | .hbm, ⟨17, _⟩ => ⟨S3200000x1, .i32⟩
  | .hbm, ⟨18, _⟩ => ⟨S3200000x32, .f32⟩
  | .hbm, ⟨19, _⟩ => ⟨S_, .i32⟩
  | .hbm, ⟨20, _⟩ => ⟨S3200000, .i32⟩
  | .hbm, ⟨21, _⟩ => ⟨S3200000, .i1⟩
  | .hbm, ⟨22, _⟩ => ⟨S_, .i32⟩
  | .hbm, ⟨23, _⟩ => ⟨S3200000, .i32⟩
  | .hbm, ⟨24, _⟩ => ⟨S3200000, .i32⟩
  | .hbm, ⟨25, _⟩ => ⟨S3200000, .i32⟩
  | .hbm, ⟨26, _⟩ => ⟨S3200000x1, .i32⟩
  | .hbm, ⟨27, _⟩ => ⟨S3200000x32, .f32⟩
  | .hbm, ⟨28, _⟩ => ⟨S3200000, .f32⟩
  | .hbm, ⟨29, _⟩ => ⟨S3200000x1, .f32⟩
  | .hbm, ⟨30, _⟩ => ⟨S3200000x65, .f32⟩
  | .hbm, ⟨31, _⟩ => ⟨S3200000x32, .f32⟩
  | .hbm, ⟨32, _⟩ => ⟨S1x32, .f32⟩
  | .hbm, ⟨33, _⟩ => ⟨S3200000x32, .f32⟩
  | .hbm, ⟨34, _⟩ => ⟨S3200000x32, .f32⟩
  | .hbm, ⟨35, _⟩ => ⟨S_, .f32⟩
  | .hbm, ⟨36, _⟩ => ⟨S3200000x32, .f32⟩
  | .hbm, ⟨37, _⟩ => ⟨S3200000x32, .f32⟩
  | .hbm, ⟨38, _⟩ => ⟨S3200000x32, .f32⟩
  | .hbm, ⟨39, _⟩ => ⟨S1x32, .f32⟩
  | .hbm, ⟨40, _⟩ => ⟨S3200000x32, .f32⟩
  | .hbm, ⟨41, _⟩ => ⟨S3200000x32, .f32⟩
  | .hbm, ⟨42, _⟩ => ⟨S3200000x32, .f32⟩
  | .hbm, ⟨43, _⟩ => ⟨S1x32, .f32⟩
  | .hbm, ⟨44, _⟩ => ⟨S3200000x32, .f32⟩
  | .hbm, ⟨45, _⟩ => ⟨S3200000x32, .f32⟩
  | .hbm, ⟨46, _⟩ => ⟨S3200000x32, .f32⟩
  | .hbm, ⟨47, _⟩ => ⟨S_, .f32⟩
  | .hbm, ⟨48, _⟩ => ⟨S3200000, .f32⟩
  | .hbm, ⟨49, _⟩ => ⟨S3200000x1, .f32⟩
  | .hbm, ⟨50, _⟩ => ⟨S3200000x1, .f32⟩
  | .hbm, ⟨51, _⟩ => ⟨S3200000x1, .f32⟩
  | .hbm, ⟨52, _⟩ => ⟨S_, .f32⟩
  | .hbm, ⟨53, _⟩ => ⟨S3200000x1, .f32⟩
  | .hbm, ⟨54, _⟩ => ⟨S3200000x1, .f32⟩
  | .hbm, ⟨55, _⟩ => ⟨S_, .f32⟩
  | .hbm, ⟨56, _⟩ => ⟨S3200000x1, .f32⟩
  | .hbm, ⟨57, _⟩ => ⟨S3200000x1, .f32⟩
  | .hbm, ⟨58, _⟩ => ⟨S3200000x32, .f32⟩
  | .hbm, ⟨59, _⟩ => ⟨S3200000x32, .f32⟩
  | .hbm, ⟨60, _⟩ => ⟨S_, .f32⟩
  | .hbm, ⟨61, _⟩ => ⟨S100000x32, .f32⟩
  | .hbm, ⟨62, _⟩ => ⟨S3200000x1, .i32⟩
  | .hbm, ⟨63, _⟩ => ⟨S100000x32, .f32⟩
  | .hbm, ⟨64, _⟩ => ⟨S_, .f32⟩
  | .hbm, ⟨65, _⟩ => ⟨S100000x32, .f32⟩
  | .hbm, ⟨66, _⟩ => ⟨S100000x32, .f32⟩
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c_1 : Ref sig .tc := ⟨.hbm, 19, rfl⟩
abbrev main_v7 : Ref sig .tc := ⟨.hbm, 20, rfl⟩
abbrev main_v8 : Ref sig .tc := ⟨.hbm, 21, rfl⟩
abbrev main_c_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_call0_cst : Ref sig .tc := ⟨.hbm, 35, rfl⟩
abbrev main_call0_v0 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_3 : Ref sig .tc := ⟨.hbm, 52, rfl⟩
abbrev main_v35 : Ref sig .tc := ⟨.hbm, 53, rfl⟩
abbrev main_v36 : Ref sig .tc := ⟨.hbm, 54, rfl⟩
abbrev main_cst_4 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_5 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_call1_cst : Ref sig .tc := ⟨.hbm, 64, rfl⟩
abbrev main_call1_v0 : Ref sig .tc := ⟨.hbm, 65, rfl⟩
abbrev main_v44 : Ref sig .tc := ⟨.hbm, 66, rfl⟩

abbrev nD : Nat := 1
abbrev τ : Topo := Topo.v7x

variable {F : FTy → Type} [FloatOps F]

class Facts₀ : Prop where
  bcast_S_S3200000 : S_.BroadcastsInDim S3200000 (![] : Fin 0 → Fin S3200000.rank)
  bcast_S3200000_S3200000x1_0 : S3200000.BroadcastsInDim S3200000x1 (![0] : Fin 1 → Fin S3200000x1.rank)
  concatenates_S1600000_S1600000_S3200000_d0 : Shape.Concatenates [S1600000, S1600000] S3200000 0
  concatenates_S3200000x32_S3200000x32_S3200000x1_S3200000x65_d1 : Shape.Concatenates [S3200000x32, S3200000x32, S3200000x1] S3200000x65 1
  bcast_S32_S1x32_1 : S32.BroadcastsInDim S1x32 (![1] : Fin 1 → Fin S1x32.rank)
  bcast_S1x32_S3200000x32_0_1 : S1x32.BroadcastsInDim S3200000x32 (![0, 1] : Fin 2 → Fin S3200000x32.rank)
  bcast_S_S3200000x32 : S_.BroadcastsInDim S3200000x32 (![] : Fin 0 → Fin S3200000x32.rank)
  reducesTo_S3200000x32_S3200000_d1 : S3200000x32.ReducesTo [1] S3200000
  h_S_ : 0 < S_.numel
  bcast_S_S3200000x1 : S_.BroadcastsInDim S3200000x1 (![] : Fin 0 → Fin S3200000x1.rank)
  bcast_S3200000x1_S3200000x32_0_1 : S3200000x1.BroadcastsInDim S3200000x32 (![0, 1] : Fin 2 → Fin S3200000x32.rank)
  bcast_S_S100000x32 : S_.BroadcastsInDim S100000x32 (![] : Fin 0 → Fin S100000x32.rank)
  gather_S100000x32_S3200000x1_S3200000x32_1_0_n_n_0_1_132_wf : GatherDims.WF S100000x32 S3200000x1 S3200000x32 [1] [0] [] [0] [] 1 ![1, 32]
  dot_S3200000x65_S65x32_S3200000x32_1_0_0_1_n_n_wf : DotDims.WF S3200000x65 S65x32 S3200000x32 [1] [0] [0] [1] [] []
  dot_S3200000x32_S32x32_S3200000x32_1_0_0_1_n_n_wf : DotDims.WF S3200000x32 S32x32 S3200000x32 [1] [0] [0] [1] [] []
  scatter_S100000x32_S3200000x1_S3200000x32_1_0_0_1_wf : ScatterDims.WF S100000x32 S3200000x1 S3200000x32 [1] [0] [0] 1

variable [Facts₀]

def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def dot_S3200000x65_S65x32_S3200000x32_1_0_0_1_n_n : DotDims S3200000x65 S65x32 S3200000x32 where
  lhsContracting := [1]
  rhsContracting := [0]
  lhsNonContracting := [0]
  rhsNonContracting := [1]
  lhsBatch := []
  rhsBatch := []
  wf := dot_S3200000x65_S65x32_S3200000x32_1_0_0_1_n_n_wf
def dot_S3200000x32_S32x32_S3200000x32_1_0_0_1_n_n : DotDims S3200000x32 S32x32 S3200000x32 where
  lhsContracting := [1]
  rhsContracting := [0]
  lhsNonContracting := [0]
  rhsNonContracting := [1]
  lhsBatch := []
  rhsBatch := []
  wf := dot_S3200000x32_S32x32_S3200000x32_1_0_0_1_n_n_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf

class Facts : Prop extends Facts₀ where

variable [Facts]
-- ==== Proof.LibMatmulPlain.lean ====
/-
  Two general facts about matrix products at the ideal values.

  * A kernel's matrix product with the plain dimension numbers (rows by columns, one contracted axis, no batch axis)
    accumulated into the zero splat, read at entry (a, b), is the inner product of row `a` of the left factor with
    column `b` of the right one: `∑ c, A a c · B c b`.
  * On the extended reals a factor distributes over a sum of two NONNEGATIVE terms whatever the factor is (the two
    infinities of opposite sign cannot meet), so a weighted sum of such sums splits into the two weighted sums.
-/
import Idealize.ShloMosaic.Lib.StackMember
import Idealize.ShloMosaic.Lib.KernelVsHost
import Idealize.ShloMosaic.Lib.ValueIdx
import Idealize.ShloMosaic.PureOps.Ideal.Laws

noncomputable section

open scoped BigOperators

namespace Cert.LibMatmulPlain

open Idealize.ShloMosaic Idealize.ShloMosaic.ValueIdx

/-- A product with the plain dimension numbers accumulated into the zero splat, read at an entry: the inner product
    of a row of the left factor with a column of the right one. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  rw [matmul_zero_eq_dotGeneral]
  exact StackMember.dotGeneral_plain_apply prec A B a b

/-- A factor distributes over a sum of two nonnegative extended reals, so a weighted sum of such sums splits. -/
theorem sum_mul_add_of_nonneg {ι : Type} [Fintype ι] (w A B : ι → EReal) (hA : ∀ k, 0 ≤ A k) (hB : ∀ k, 0 ≤ B k) :
    ∑ k, w k * (A k + B k) = ∑ k, w k * A k + ∑ k, w k * B k := by
  rw [← Finset.sum_add_distrib]
  exact Finset.sum_congr rfl fun k _ => EReal.left_distrib_of_nonneg (hA k) (hB k)

end Cert.LibMatmulPlain

end
-- ==== Proof.LibAffineRow.lean ====
/-
  A general fact about a dense layer whose bias is already a one-row matrix, at the ideal values.

  A kernel's matrix product with the plain dimension numbers (rows by columns, one contracted axis, no batch axis)
  accumulated into the zero splat, plus a bias kept as a [1, n] row (cast to its own shape, as a block load leaves it) and
  broadcast down the rows, read at entry (r, c), is the inner product of row r of the left factor with column c of the
  right one plus the bias's entry c; and the same number as one function `affine A B b` of the output index, so that a
  tiled kernel's output array can be stated as that one function of its three input arrays.
-/
import Idealize.ShloMosaic.Lib.ValueIdx
import Idealize.ShloMosaic.Lib.ValueLayout
import Idealize.ShloMosaic.Lib.Pipeline.Value
import Idealize.ShloMosaic.PureOps.Ideal.Laws
import proofs.«138649_j80204219285966_2_alg».proof.Proof.LibMatmulPlain

noncomputable section

open scoped BigOperators

namespace Cert.LibAffineRow

open Idealize.ShloMosaic Idealize.ShloMosaic.ValueIdx

/-- A matrix product with the plain dimension numbers into the zero splat, plus a one-row bias (cast to its own shape)
    broadcast down the rows, at entry (r, c): the inner product of row r with column c, plus the bias's entry c. -/
theorem affine_row_apply {m k n : Nat} {φ₁ φ₂ : FTy} (dd : DotDims ⟨2, ![m, k]⟩ ⟨2, ![k, n]⟩ ⟨2, ![m, n]⟩)
    (hdd : dd = DotDims.plain m k n) (prec : Option ContractPrecision)
    (A : FVec Ideal ⟨2, ![m, k]⟩ φ₁) (B : FVec Ideal ⟨2, ![k, n]⟩ φ₂) (b : FVec Ideal ⟨2, ![1, n]⟩ .f32)
    (h1 : (⟨2, ![1, n]⟩ : Shape).ShapeCasts ⟨2, ![1, n]⟩) (hb : (⟨2, ![1, n]⟩ : Shape).Broadcasts ⟨2, ![m, n]⟩)
    (r : Fin m) (c : Fin n) :
    addf (matmul dd prec A B (constant (F := Ideal) ⟨2, ![m, n]⟩ .f32 0x00000000#32))
        (broadcastTo ⟨2, ![m, n]⟩ (shapeCast ⟨2, ![1, n]⟩ b h1) hb) (ix2 r c)
      = (∑ q : Fin k, A (ix2 r q) * B (ix2 q c)) + b (ix2 (0 : Fin 1) c) := by
  subst hdd
  rw [addf_apply, Cert.LibMatmulPlain.matmul_plain_zero_apply, broadcastTo_1b_ab_apply, shapeCast_self]

/-- The affine map of a matrix A [m, k], weights B [k, n] and a one-row bias b [1, n], as one function of the output index. -/
def affine {m k n : Nat} (A : (⟨2, ![m, k]⟩ : Shape).Idx → EReal) (B : (⟨2, ![k, n]⟩ : Shape).Idx → EReal)
    (b : (⟨2, ![1, n]⟩ : Shape).Idx → EReal) : (⟨2, ![m, n]⟩ : Shape).Idx → EReal :=
  fun i => (∑ κ : Fin k, A (ix2 (⟨(i 0).val, idx2_lt0 i⟩ : Fin m) κ) * B (ix2 κ (⟨(i 1).val, idx2_lt1 i⟩ : Fin n)))
    + b (ix2 (0 : Fin 1) (⟨(i 1).val, idx2_lt1 i⟩ : Fin n))

/-- At the index with coordinates (r, q) it is the inner product of row r with column q, plus the bias's entry q. -/
theorem affine_ix2 {m k n : Nat} (A : (⟨2, ![m, k]⟩ : Shape).Idx → EReal) (B : (⟨2, ![k, n]⟩ : Shape).Idx → EReal)
    (b : (⟨2, ![1, n]⟩ : Shape).Idx → EReal) (r : Fin m) (q : Fin n) :
    affine A B b (ix2 r q) = (∑ κ : Fin k, A (ix2 r κ) * B (ix2 κ q)) + b (ix2 (0 : Fin 1) q) := rfl

end Cert.LibAffineRow

end
-- ==== Proof.LibRowOps.lean ====
/-
  General readings, at the ideal values, of the operations a row-wise dense layer and a row-wise reduction are printed
  with, each at an entry given by its coordinates.

  * An affine layer `A·B + b` (the bias a vector laid along every row): the entry `(r, c)` is `∑_q A_{r,q} B_{q,c} + b_c`,
    whether it is spelt as a kernel spells it (a matrix product accumulated into the zero splat, plus the broadcast of the
    bias's one-row cast) or as the host does (a `dot_general`, plus the bias broadcast to one row and then down the rows).
  * A sum along the rows of a matrix: the entry `r` is `∑_q v_{r,q}`, for the kernel's lane reduction (whose neutral
    accumulator the reading drops) and, with the initial value in front, for the host's `reduce`.
  * A column `[a, 1]` turned on its side and given a leading unit axis reads back, at `(0, 0, j)`, the column at `(j, 0)`.
-/
import Idealize.ShloMosaic.Lib.StackMember
import Idealize.ShloMosaic.Lib.KernelVsHost
import Idealize.ShloMosaic.Lib.ValueIdx
import Idealize.ShloMosaic.Lib.ValueLayout
import Idealize.ShloMosaic.Lib.Pipeline.Value
import Idealize.ShloMosaic.PureOps.Ideal.Laws
import proofs.«138649_j80204219285966_2_alg».proof.Proof.LibMatmulPlain

noncomputable section

open scoped BigOperators

namespace Cert.LibRowOps

open Idealize.ShloMosaic Idealize.ShloMosaic.ValueIdx

/-- A kernel's affine layer at an entry: the matrix product with the plain dimension numbers into the zero splat, plus the
    bias vector cast to one row and broadcast down the rows. -/
theorem kernel_affine_apply {m k n : Nat} {φ₁ φ₂ : FTy} (dd : DotDims ⟨2, ![m, k]⟩ ⟨2, ![k, n]⟩ ⟨2, ![m, n]⟩)
    (hdd : dd = DotDims.plain m k n) (prec : Option ContractPrecision)
    (A : FVec Ideal ⟨2, ![m, k]⟩ φ₁) (B : FVec Ideal ⟨2, ![k, n]⟩ φ₂) (b : FVec Ideal ⟨1, ![n]⟩ .f32)
    (h1 : (⟨1, ![n]⟩ : Shape).ShapeCasts ⟨2, ![1, n]⟩) (hb : (⟨2, ![1, n]⟩ : Shape).Broadcasts ⟨2, ![m, n]⟩)
    (r : Fin m) (c : Fin n) :
    addf (matmul dd prec A B (constant (F := Ideal) ⟨2, ![m, n]⟩ .f32 0x00000000#32))
        (broadcastTo ⟨2, ![m, n]⟩ (shapeCast ⟨2, ![1, n]⟩ b h1) hb) (ix2 r c)
      = (∑ q : Fin k, A (ix2 r q) * B (ix2 q c)) + b (ix1 c) := by
  subst hdd
  rw [addf_apply, LibMatmulPlain.matmul_plain_zero_apply, broadcastTo_1b_ab_apply, shapeCast_a_1a_apply]

/-- The host's affine layer at an entry: a `dot_general` with the plain dimension numbers, plus the bias vector broadcast to
    one row and that row broadcast down the rows. -/
theorem host_affine_apply {m k n : Nat} {φ₁ φ₂ : FTy} (dd : DotDims ⟨2, ![m, k]⟩ ⟨2, ![k, n]⟩ ⟨2, ![m, n]⟩)
    (hdd : dd = DotDims.plain m k n) (prec : Option ContractPrecision)
    (A : FVec Ideal ⟨2, ![m, k]⟩ φ₁) (B : FVec Ideal ⟨2, ![k, n]⟩ φ₂) (b : FVec Ideal ⟨1, ![n]⟩ .f32)
    (hd1 : (⟨1, ![n]⟩ : Shape).BroadcastsInDim ⟨2, ![1, n]⟩ ![1])
    (hd2 : (⟨2, ![1, n]⟩ : Shape).BroadcastsInDim ⟨2, ![m, n]⟩ ![0, 1]) (r : Fin m) (c : Fin n) :
    addf (Host.dotGeneral dd prec A B)
        (broadcastInDim ⟨2, ![m, n]⟩ ![0, 1] hd2 (broadcastInDim ⟨2, ![1, n]⟩ ![1] hd1 b)) (ix2 r c)
      = (∑ q : Fin k, A (ix2 r q) * B (ix2 q c)) + b (ix1 c) := by
  subst hdd
  rw [addf_apply, StackMember.dotGeneral_plain_apply, broadcastInDim_oneRow_apply]
  refine congrArg (_ + ·) ?_
  refine broadcastInDim_apply ![1] hd1 b (ix2 (0 : Fin 1) c) (ix1 c) fun a => ?_
  match a with
  | ⟨0, _⟩ =>
    show c.val = if n = 1 then 0 else c.val
    split
    · have := c.isLt; omega
    · rfl

/-- A kernel's sum along the rows of a matrix, at row `r`. -/
theorem kernel_rowsum_apply {m k : Nat} (v : FVec Ideal ⟨2, ![m, k]⟩ .f32)
    (h : (⟨2, ![m, k]⟩ : Shape).Reduces [1] ⟨1, ![m]⟩) (hφ : FKind.Formats .f32)
    (hacc : (0x00000000#32 : BitVec FTy.f32.bits) = FKind.add.neutral .f32 hφ) (r : Fin m) :
    multiReduction .add [1] ⟨1, ![m]⟩ v 0x00000000#32 h hφ hacc (ix1 r) = ∑ q : Fin k, v (ix2 r q) := by
  refine (Ideal.multiReduction_add_single v 0x00000000#32 h hφ hacc (ix1 r)).trans ?_
  refine Finset.sum_congr rfl fun q _ => congrArg v (funext fun a => Fin.ext ?_)
  match a with
  | ⟨0, _⟩ => rfl
  | ⟨1, _⟩ => rfl

/-- The host's sum along the rows of a matrix from a scalar initial value, at row `r`. -/
theorem host_rowsum_apply {m k : Nat} (v : FVec Ideal ⟨2, ![m, k]⟩ .f32) (init : FVec Ideal ⟨0, ![]⟩ .f32)
    (h' : (⟨2, ![m, k]⟩ : Shape).ReducesTo [1] ⟨1, ![m]⟩) (h : (⟨2, ![m, k]⟩ : Shape).Reduces [1] ⟨1, ![m]⟩)
    (hu : 0 < (⟨0, ![]⟩ : Shape).numel) (r : Fin m) :
    Host.reduceAdd v init h' hu (ix1 r) = init ix0 + ∑ q : Fin k, v (ix2 r q) := by
  show Ideal.hostReduceAdd h' v (init (Shape.Idx.first hu)) (ix1 r) = _
  rw [Ideal.hostReduceAdd_single h' h, eq_ix0 (Shape.Idx.first hu)]
  refine congrArg (_ + ·) (Finset.sum_congr rfl fun q _ => congrArg v (funext fun a => Fin.ext ?_))
  match a with
  | ⟨0, _⟩ => rfl
  | ⟨1, _⟩ => rfl

/-- A column turned on its side and given a leading unit axis, read at `(0, 0, j)`: the column's entry of row `j`. -/
theorem column_as_lanes_apply {a : Nat} {α : Type} (x : (⟨2, ![a, 1]⟩ : Shape).Idx → α)
    (ht : (⟨2, ![a, 1]⟩ : Shape).Transposes [1, 0] ⟨2, ![1, a]⟩)
    (hc : (⟨2, ![1, a]⟩ : Shape).ShapeCasts ⟨3, ![1, 1, a]⟩) (j : Fin a) :
    shapeCast ⟨3, ![1, 1, a]⟩ (transpose ⟨2, ![1, a]⟩ [1, 0] x ht) hc (ix3 (0 : Fin 1) (0 : Fin 1) j) = x (ix2 j (0 : Fin 1)) := by
  rw [shapeCast_ab_1ab_apply, transpose_ix2_apply]

end Cert.LibRowOps

end
-- ==== Proof.LibKeepdims.lean ====
/-
  Two layout readings a row reduction with `keepdims` needs: a vector of `a` entries viewed as a column `[a, 1]`, and that
  column repeated along `b` columns. Each reads, at an index given by its coordinates, one entry of the operand.
-/
import Idealize.ShloMosaic.Lib.Pipeline.Value
import Idealize.ShloMosaic.Lib.ValueIdx

namespace Cert.Keepdims

open Idealize.ShloMosaic Idealize.ShloMosaic.ValueIdx

variable {α : Type}

/-- An `[a]` array cast to the column `[a, 1]` reads, at `(i, u)`, the operand at `i`, whatever the unit coordinate `u`:
    the row-major position of `(i, u)` in `[a, 1]` is `i · 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.EdgeSpec.lean ====
/-
  The message along one edge of the graph, as one function of that edge's data.

  An edge carries the feature row `r` of its receiving node, the feature row `s` of its sending node (32 numbers
  each) and one coupling `cpl`. The first dense layer has a 65-row weight matrix `W1`: rows 0..31 meet `r`, rows
  32..63 meet `s`, row 64 meets the coupling. Its output, plus the bias and cut off below at zero, is multiplied
  by a gate: the logistic function of the inner product of a query (an affine image of `s`) with a key (an affine
  image of `r`).

  The only law needed to compare the two programs is that a sum over 65 terms is the sum of its first 32 terms, its
  next 32 terms and its last term; addition on the extended reals is commutative and associative, so this holds for
  every extended-real input, the infinities included.
-/
import Idealize.ShloMosaic.PureOps.Ideal.Laws
import Idealize.ShloMosaic.Lib.ValueIdx

noncomputable section

open scoped BigOperators

namespace Cert.EdgeSpec

open Idealize.ShloMosaic Idealize.ShloMosaic.ValueIdx

/-- Row `d` of the first block of the 65-row weight matrix: the rows that meet the receiver's features. -/
def rowR (d : Fin 32) : Fin 65 := ⟨d.val, by omega⟩
/-- Row `32 + d`: the rows that meet the sender's features. -/
def rowS (d : Fin 32) : Fin 65 := ⟨32 + d.val, by omega⟩
/-- Row 64: the row that meets the coupling. -/
def rowC : Fin 65 := ⟨64, by omega⟩

/-- A sum over 65 terms is the sum over its first 32, its next 32, and its last one. -/
theorem sum65_split (g : Fin 65 → EReal) :
    ∑ k : Fin 65, g k = ((∑ d : Fin 32, g (rowR d)) + (∑ d : Fin 32, g (rowS d))) + g rowC := by
  have h1 : ∑ k : Fin 65, g k = (∑ k : Fin 64, g k.castSucc) + g (Fin.last 64) := Fin.sum_univ_castSucc g
  have h2 : ∑ k : Fin 64, g k.castSucc
      = (∑ d : Fin 32, g (Fin.castAdd 32 d).castSucc) + ∑ d : Fin 32, g (Fin.natAdd 32 d).castSucc :=
    Fin.sum_univ_add (a := 32) (b := 32) (fun k : Fin (32 + 32) => g (Fin.castSucc (n := 64) k))
  rw [h1, h2]
  rfl

/-- The gated message of one edge at output feature `o`:
    `max (r·W1[0:32] + s·W1[32:64] + cpl·W1[64] + b1, 0)_o · logistic (Σ_j (s·Wq + bq)_j (r·Wk + bk)_j)`. -/
def edgeMsg (r s : Fin 32 → EReal) (cpl : EReal) (W1 : Fin 65 → Fin 32 → EReal) (b1 : Fin 32 → EReal)
    (Wq : Fin 32 → Fin 32 → EReal) (bq : Fin 32 → EReal) (Wk : Fin 32 → Fin 32 → EReal) (bk : Fin 32 → EReal)
    (o : Fin 32) : EReal :=
  max (((((∑ d : Fin 32, r d * W1 (rowR d) o) + (∑ d : Fin 32, s d * W1 (rowS d) o)) + cpl * W1 rowC o)) + b1 o) 0
    * Ideal.logistic (∑ j : Fin 32, ((∑ d : Fin 32, s d * Wq d j) + bq j) * ((∑ d : Fin 32, r d * Wk d j) + bk j))

/-- A one-row matrix `[1, 32]` read as the vector of its 32 entries. -/
def rowVec (v : (⟨2, ![1, 32]⟩ : Shape).Idx → EReal) : (⟨1, ![32]⟩ : Shape).Idx → EReal :=
  fun i => v (ix2 (0 : Fin 1) (⟨(i 0).val, (i 0).isLt⟩ : Fin 32))

/-- The messages of all 3,200,000 edges as one array `[3200000, 32]`: row `e` is the gated message of edge `e`, a
    function of row `e` of the gathered receiver features `rf`, row `e` of the gathered sender features `sf`, entry
    `e` of the coupling column `mc`, and the layer's weights and biases. -/
def Msg (rf sf : (⟨2, ![3200000, 32]⟩ : Shape).Idx → EReal) (mc : (⟨2, ![3200000, 1]⟩ : Shape).Idx → EReal)
    (W1 : (⟨2, ![65, 32]⟩ : Shape).Idx → EReal) (b1 : (⟨1, ![32]⟩ : Shape).Idx → EReal)
    (Wq : (⟨2, ![32, 32]⟩ : Shape).Idx → EReal) (bq : (⟨1, ![32]⟩ : Shape).Idx → EReal)
    (Wk : (⟨2, ![32, 32]⟩ : Shape).Idx → EReal) (bk : (⟨1, ![32]⟩ : Shape).Idx → EReal) :
    (⟨2, ![3200000, 32]⟩ : Shape).Idx → EReal :=
  fun i => edgeMsg (fun d => rf (ix2 (⟨(i 0).val, idx2_lt0 i⟩ : Fin 3200000) d))
    (fun d => sf (ix2 (⟨(i 0).val, idx2_lt0 i⟩ : Fin 3200000) d))
    (mc (ix2 (⟨(i 0).val, idx2_lt0 i⟩ : Fin 3200000) (0 : Fin 1)))
    (fun k o => W1 (ix2 k o)) (fun o => b1 (ix1 o)) (fun d j => Wq (ix2 d j)) (fun j => bq (ix1 j))
    (fun d j => Wk (ix2 d j)) (fun j => bk (ix1 j)) (⟨(i 1).val, idx2_lt1 i⟩ : Fin 32)

/-- At the entry with coordinates (e, o) it is edge `e`'s gated message at output feature `o`. -/
theorem Msg_ix2 (rf sf : (⟨2, ![3200000, 32]⟩ : Shape).Idx → EReal) (mc : (⟨2, ![3200000, 1]⟩ : Shape).Idx → EReal)
    (W1 : (⟨2, ![65, 32]⟩ : Shape).Idx → EReal) (b1 : (⟨1, ![32]⟩ : Shape).Idx → EReal)
    (Wq : (⟨2, ![32, 32]⟩ : Shape).Idx → EReal) (bq : (⟨1, ![32]⟩ : Shape).Idx → EReal)
    (Wk : (⟨2, ![32, 32]⟩ : Shape).Idx → EReal) (bk : (⟨1, ![32]⟩ : Shape).Idx → EReal) (e : Fin 3200000) (o : Fin 32) :
    Msg rf sf mc W1 b1 Wq bq Wk bk (ix2 e o)
      = edgeMsg (fun d => rf (ix2 e d)) (fun d => sf (ix2 e d)) (mc (ix2 e (0 : Fin 1))) (fun k o => W1 (ix2 k o))
          (fun o => b1 (ix1 o)) (fun d j => Wq (ix2 d j)) (fun j => bq (ix1 j)) (fun d j => Wk (ix2 d j))
          (fun j => bk (ix1 j)) o := rfl

-- from here on the message array is used through `Msg_ix2` only
attribute [irreducible] Msg

end Cert.EdgeSpec

end
-- ==== Proof.KernelEntry.lean ====
/-
  The kernel body's arithmetic read at one entry of its output block.

  A block holds 4000 edges. Entry (p, q) of what the body stores is the gated message of the block's edge p at output
  feature q: the two matrix products against the upper and middle 32 rows of the weight matrix give the receiver's and
  the sender's contributions, the coupling column times the last row gives the third, the lane sum of query times key
  feeds the logistic gate, kept as a column and repeated along the 32 output features.
-/
import proofs.«138649_j80204219285966_2_alg».proof.Proof.Gen.KernelIdeal.Skeleton
import proofs.«138649_j80204219285966_2_alg».proof.Proof.LibMatmulPlain
import proofs.«138649_j80204219285966_2_alg».proof.Proof.LibAffineRow
import proofs.«138649_j80204219285966_2_alg».proof.Proof.LibRowOps
import proofs.«138649_j80204219285966_2_alg».proof.Proof.LibKeepdims
import proofs.«138649_j80204219285966_2_alg».proof.Proof.EdgeSpec
import Idealize.ShloMosaic.Lib.ValueIdx
import Idealize.ShloMosaic.Lib.ValueLayout
import Idealize.ShloMosaic.Lib.Pipeline.Value

noncomputable section

open scoped BigOperators

namespace Cert.KernelEntry

open Cert.KernelIdeal Cert.KernelIdeal.Gen Idealize.ShloMosaic Idealize.ShloMosaic.ValueIdx Cert.EdgeSpec

/-- The kernel's matrix products all have the plain dimension numbers: rows by columns, one contracted axis. -/
theorem dot_plain : dot_S4000x32_S32x32_S4000x32_1_0_0_1_n_n = DotDims.plain 4000 32 32 := rfl

/-- The key before its bias: the receiver rows times the key weights. -/
theorem pay6_entry (x0 : FVec Ideal S4000x32 .f32) (x7 : FVec Ideal S32x32 .f32) (p : Fin 4000) (j : Fin 32) :
    k0_pay6 x0 x7 (ix2 p j) = ∑ d : Fin 32, x0 (ix2 p d) * x7 (ix2 d j) := by
  unfold k0_pay6 k0_pay2
  rw [dot_plain, Cert.LibMatmulPlain.matmul_plain_zero_apply, shapeCast_self]
  rfl

/-- The query: the sender rows times the query weights, plus the query bias. -/
theorem pay5_entry (x1 : FVec Ideal S4000x32 .f32) (x5 : FVec Ideal S32x32 .f32) (x6 : FVec Ideal S1x32 .f32)
    (p : Fin 4000) (j : Fin 32) :
    k0_pay5 x1 x5 x6 (ix2 p j) = (∑ d : Fin 32, x1 (ix2 p d) * x5 (ix2 d j)) + x6 (ix2 (0 : Fin 1) j) := by
  unfold k0_pay5 k0_pay3
  refine (Cert.LibAffineRow.affine_row_apply _ dot_plain none _ _ x6 _ _ p j).trans ?_
  rw [shapeCast_self]
  rfl

/-- The upper 32 rows of the weight matrix, as the body slices them off. -/
theorem slice_rowR (x3 : FVec Ideal S65x32 .f32) (d q : Fin 32) :
    extractStridedSlice S32x32 ![0, 0] x3 slices_S65x32_o0_0_S32x32 (ix2 d q) = x3 (ix2 (rowR d) q) :=
  extractStridedSlice_apply _ x3 _ (ix2 d q) (ix2 (rowR d) q) fun a => by
    match a with
    | ⟨0, _⟩ => show d.val = 0 + d.val; omega
    | ⟨1, _⟩ => show q.val = 0 + q.val; omega

/-- The middle 32 rows. -/
theorem slice_rowS (x3 : FVec Ideal S65x32 .f32) (d q : Fin 32) :
    extractStridedSlice S32x32 ![32, 0] x3 slices_S65x32_o32_0_S32x32 (ix2 d q) = x3 (ix2 (rowS d) q) :=
  extractStridedSlice_apply _ x3 _ (ix2 d q) (ix2 (rowS d) q) fun a => by
    match a with
    | ⟨0, _⟩ => show 32 + d.val = 32 + d.val; rfl
    | ⟨1, _⟩ => show q.val = 0 + q.val; omega

/-- The last row, kept as a one-row matrix. -/
theorem slice_rowC (x3 : FVec Ideal S65x32 .f32) (u : Fin 1) (q : Fin 32) :
    extractStridedSlice S1x32 ![64, 0] x3 slices_S65x32_o64_0_S1x32 (ix2 u q) = x3 (ix2 rowC q) :=
  extractStridedSlice_apply _ x3 _ (ix2 u q) (ix2 rowC q) fun a => by
    match a with
    | ⟨0, _⟩ => show 64 = 64 + u.val; omega
    | ⟨1, _⟩ => show q.val = 0 + q.val; omega

/-- The first layer cut off below at zero: receiver part, sender part, coupling part, bias. -/
theorem pay4_entry (x0 x1 : FVec Ideal S4000x32 .f32) (x2 : FVec Ideal S4000x1 .f32) (x3 : FVec Ideal S65x32 .f32)
    (x4 : FVec Ideal S1x32 .f32) (p : Fin 4000) (q : Fin 32) :
    k0_pay4 x0 x1 x2 x3 x4 (ix2 p q)
      = max (((((∑ d : Fin 32, x0 (ix2 p d) * x3 (ix2 (rowR d) q)) + (∑ d : Fin 32, x1 (ix2 p d) * x3 (ix2 (rowS d) q)))
          + x2 (ix2 p (0 : Fin 1)) * x3 (ix2 rowC q))) + x4 (ix2 (0 : Fin 1) q)) 0 := by
  unfold k0_pay4 k0_pay2 k0_pay3
  rw [maximumf_apply, addf_apply, addf_apply, addf_apply, mulf_apply, dot_plain,
    Cert.LibMatmulPlain.matmul_plain_zero_apply, Cert.LibMatmulPlain.matmul_plain_zero_apply,
    Cert.Keepdims.broadcastTo_a1_ab_apply, broadcastTo_1b_ab_apply, broadcastTo_1b_ab_apply, broadcast_apply]
  simp only [shapeCast_self, truncf_apply, slice_rowR, slice_rowS, slice_rowC]
  rw [show (Scalar.ofBits (F := Ideal) .f32 0x00000000#32 : EReal) = 0 from Ideal.ofBits_zero_f32]

/-- The gate applied: the cut-off first layer times the logistic of the lane sum of query times key. -/
theorem pay1_entry (v26 v35 v36 : FVec Ideal S4000x32 .f32) (x8 : FVec Ideal S1x32 .f32) (p : Fin 4000) (q : Fin 32) :
    k0_pay1 v26 v35 v36 x8 (ix2 p q)
      = v26 (ix2 p q) * Ideal.logistic (∑ j : Fin 32, v35 (ix2 p j) * (v36 (ix2 p j) + x8 (ix2 (0 : Fin 1) j))) := by
  unfold k0_pay1
  rw [mulf_apply, Cert.Keepdims.broadcastTo_a1_ab_apply]
  refine congrArg (v26 (ix2 p q) * ·) ?_
  show Ideal.logistic (shapeCast S4000x1 _ shapeCasts_S4000_S4000x1 (ix2 p (0 : Fin 1))) = _
  rw [Cert.Keepdims.shapeCast_a_a1_apply]
  refine congrArg Ideal.logistic ((Cert.LibRowOps.kernel_rowsum_apply _ reduces_S4000x32_S4000 _ _ p).trans ?_)
  refine Finset.sum_congr rfl fun j _ => ?_
  rw [mulf_apply, addf_apply, broadcastTo_1b_ab_apply, shapeCast_self]

/-- Entry (p, q) of the block the body stores is the gated message of the block's edge p at output feature q. -/
theorem block_entry (x0 x1 : FVec Ideal S4000x32 .f32) (x2 : FVec Ideal S4000x1 .f32) (x3 : FVec Ideal S65x32 .f32)
    (x4 : FVec Ideal S1x32 .f32) (x5 : FVec Ideal S32x32 .f32) (x6 : FVec Ideal S1x32 .f32)
    (x7 : FVec Ideal S32x32 .f32) (x8 : FVec Ideal S1x32 .f32) (p : Fin 4000) (q : Fin 32) :
    k0_pay1 (F := Ideal) (k0_pay4 x0 x1 x2 x3 x4) (k0_pay5 x1 x5 x6) (k0_pay6 x0 x7) x8 (ix2 p q)
      = edgeMsg (fun d => x0 (ix2 p d)) (fun d => x1 (ix2 p d)) (x2 (ix2 p (0 : Fin 1))) (fun k o => x3 (ix2 k o))
          (fun o => x4 (ix2 (0 : Fin 1) o)) (fun d j => x5 (ix2 d j)) (fun j => x6 (ix2 (0 : Fin 1) j))
          (fun d j => x7 (ix2 d j)) (fun j => x8 (ix2 (0 : Fin 1) j)) q := by
  rw [pay1_entry, pay4_entry]
  simp only [pay5_entry, pay6_entry]
  rfl

/-- A block whose input blocks are the matching rows of whole arrays stores the matching rows of `Msg` of those arrays:
    if rows p of the two feature blocks and of the coupling block are rows E of the whole arrays, and the weight and
    bias blocks are the whole (small) arrays, entry (p, q) of the stored block is entry (E, q) of `Msg`. -/
theorem block_msg (rf sf : (⟨2, ![3200000, 32]⟩ : Shape).Idx → EReal) (mc : (⟨2, ![3200000, 1]⟩ : Shape).Idx → EReal)
    (W1 : FVec Ideal S65x32 .f32) (b1 : FVec Ideal S1x32 .f32) (Wq : FVec Ideal S32x32 .f32) (bq : FVec Ideal S1x32 .f32)
    (Wk : FVec Ideal S32x32 .f32) (bk : FVec Ideal S1x32 .f32)
    (x0 x1 : FVec Ideal S4000x32 .f32) (x2 : FVec Ideal S4000x1 .f32) (x3 : FVec Ideal S65x32 .f32)
    (x4 : FVec Ideal S1x32 .f32) (x5 : FVec Ideal S32x32 .f32) (x6 : FVec Ideal S1x32 .f32)
    (x7 : FVec Ideal S32x32 .f32) (x8 : FVec Ideal S1x32 .f32) (E : Fin 3200000) (p : Fin 4000) (q : Fin 32)
    (h0 : ∀ d : Fin 32, x0 (ix2 p d) = rf (ix2 E d)) (h1 : ∀ d : Fin 32, x1 (ix2 p d) = sf (ix2 E d))
    (h2 : x2 (ix2 p (0 : Fin 1)) = mc (ix2 E (0 : Fin 1)))
    (h3 : x3 = W1) (h4 : x4 = b1) (h5 : x5 = Wq) (h6 : x6 = bq) (h7 : x7 = Wk) (h8 : x8 = bk) :
    k0_pay1 (F := Ideal) (k0_pay4 x0 x1 x2 x3 x4) (k0_pay5 x1 x5 x6) (k0_pay6 x0 x7) x8 (ix2 p q)
      = Msg rf sf mc W1 (rowVec b1) Wq (rowVec bq) Wk (rowVec bk) (ix2 E q) := by
  subst h3 h4 h5 h6 h7 h8
  rw [block_entry, Msg_ix2]
  simp only [h0, h1, h2]
  rfl

end Cert.KernelEntry

end
-- ==== Proof.KernelArray.lean ====
/-
  From the blocks the grid points write back to the whole message array.

  The grid has 800 points; point t handles edges 4000·t .. 4000·t + 3999. Its feature, coupling and output blocks are
  rows 4000·t + p of the whole arrays (column block 0), and its weight and bias blocks are the whole small arrays. So
  what point t writes back is block t of ONE whole-array function, the message array `Msg` of the arrays as the region
  finds them; the 800 blocks tile the 3,200,000 rows (edge e lies in block e / 4000), hence the array ends holding
  `Msg` everywhere.
-/
import proofs.«138649_j80204219285966_2_alg».proof.Proof.Gen.KernelIdeal.Frame
import proofs.«138649_j80204219285966_2_alg».proof.Proof.KernelEntry
import Idealize.ShloMosaic.Lib.Pipeline.Value
import Idealize.ShloMosaic.Lib.ValueIdx

set_option maxRecDepth 16384

noncomputable section

open scoped BigOperators

namespace Cert.KernelArray

open Cert.KernelIdeal Cert.KernelIdeal.Gen Idealize.ShloMosaic Idealize.ShloMosaic.TcCoe Idealize.ShloMosaic.ValueIdx
  Idealize.SL.Sem Cert.EdgeSpec
open Idealize.ShloMosaic.Pipeline (Dat Cfg Window)

variable (m : (ℓ : Loc nD τ sig) → Buf (Elt Ideal) ℓ)

theorem hz : (![0, 0] : Fin 2 → Nat) = fun _ => 0 := funext fun a => by fin_cases a <;> rfl

/-- The message array of the arrays as the region finds them: the two gathered feature arrays, the coupling column,
    the weights, and the three one-row biases read as vectors. -/
def G (c : Dev nD) : S3200000x32.Idx → EReal :=
  Msg (V m c main_v6) (V m c main_v13) (V m c main_v15) (V m c main_arg2) (rowVec (V m c main_v16))
    (V m c main_arg4) (rowVec (V m c main_v17)) (V m c main_arg6) (rowVec (V m c main_v18))

theorem G_apply (c : Dev nD) (i : S3200000x32.Idx) :
    Msg (V m c main_v6) (V m c main_v13) (V m c main_v15) (V m c main_arg2) (rowVec (V m c main_v16))
      (V m c main_arg4) (rowVec (V m c main_v17)) (V m c main_arg6) (rowVec (V m c main_v18)) i = G m c i := rfl

attribute [irreducible] G

/-- The printed index maps over the 800 grid points: the edge-blocked windows sit at row block t, column block 0; the
    weight and bias windows stay at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = t.val ∧ win0_9.index t (1 : Fin 2) = 0 :=
  (by decide +kernel : ∀ t : Fin grid0.N, _)

theorem t_lt (t : Fin cfg0.N) : t.val < 800 := Nat.lt_of_lt_of_eq t.isLt (N_0 : cfg0.N = 800)

/-- WHAT POINT t WRITES BACK is block t of the message array. -/
theorem flushed_eq (c : Dev nD) (t : Fin cfg0.N) :
    (dats m 0 c).flushed 9 t = ((cfg0.win 9).blk t).view.read (Elt Ideal) (G m c) := by
  show (cfg0.win 9).cut (grid0.coords t) ((dats m 0 c).after 9 t) = _
  rw [after0_9]
  unfold out0_9
  rw [View.canon_unit_zero hz]
  simp only [View.ld_unit_zero (S := S4000x32) hz, View.ld_unit_zero (S := S4000x1) hz, View.ld_unit_zero (S := S65x32) hz,
    View.ld_unit_zero (S := S1x32) hz, View.ld_unit_zero (S := S32x32) hz]
  obtain ⟨a00, a01, a10, a11, a20, a21, a30, a31, a40, a41, a50, a51, a60, a61, a70, a71, a80, a81, a90, a91⟩ := idx_facts t
  have ht := t_lt t
  funext j
  refine Eq.trans ?_ (View.read_apply (Val := Elt Ideal) (v := ((cfg0.win 9).blk t).view) (G m c) j).symm
  obtain ⟨p, q, rfl⟩ : ∃ (p : Fin 4000) (q : Fin 32), j = ix2 p q := ⟨j 0, j 1, eq_ix2 j⟩
  have hp := p.isLt
  have hq := q.isLt
  -- the rows of the whole arrays this block's row p is
  have r0 : ∀ d : Fin 32, ((cfg0.win 0).blk t).view.emb (ix2 p d) = ix2 (⟨t.val * 4000 + p.val, by omega⟩ : Fin 3200000) d := fun d => by
    have hd := d.isLt
    funext a; apply Fin.ext
    match a with
    | ⟨0, _⟩ => show win0_0.index t (0 : Fin 2) * 4000 + 1 * p.val = t.val * 4000 + p.val; omega
    | ⟨1, _⟩ => show win0_0.index t (1 : Fin 2) * 32 + 1 * d.val = d.val; omega
  have r1 : ∀ d : Fin 32, ((cfg0.win 1).blk t).view.emb (ix2 p d) = ix2 (⟨t.val * 4000 + p.val, by omega⟩ : Fin 3200000) d := fun d => by
    have hd := d.isLt
    funext a; apply Fin.ext
    match a with
    | ⟨0, _⟩ => show win0_1.index t (0 : Fin 2) * 4000 + 1 * p.val = t.val * 4000 + p.val; omega
    | ⟨1, _⟩ => show win0_1.index t (1 : Fin 2) * 32 + 1 * d.val = d.val; omega
  have r2 : ((cfg0.win 2).blk t).view.emb (ix2 p (0 : Fin 1)) = ix2 (⟨t.val * 4000 + p.val, by omega⟩ : Fin 3200000) (0 : Fin 1) := by
    funext a; apply Fin.ext
    match a with
    | ⟨0, _⟩ => show win0_2.index t (0 : Fin 2) * 4000 + 1 * p.val = t.val * 4000 + p.val; omega
    | ⟨1, _⟩ => show win0_2.index t (1 : Fin 2) * 1 + 1 * 0 = 0; omega
  have r9 : ((cfg0.win 9).blk t).view.emb (ix2 p q) = ix2 (⟨t.val * 4000 + p.val, by omega⟩ : Fin 3200000) q := by
    funext a; apply Fin.ext
    match a with
    | ⟨0, _⟩ => show win0_9.index t (0 : Fin 2) * 4000 + 1 * p.val = t.val * 4000 + p.val; omega
    | ⟨1, _⟩ => show win0_9.index t (1 : Fin 2) * 32 + 1 * q.val = q.val; omega
  -- the weight and bias blocks are the whole small arrays
  have r3 : ∀ y : S65x32.Idx, ((cfg0.win 3).blk t).view.emb y = y := fun y => by
    funext a; apply Fin.ext
    match a with
    | ⟨0, _⟩ => show win0_3.index t (0 : Fin 2) * 65 + 1 * (y 0).val = (y 0).val; omega
    | ⟨1, _⟩ => show win0_3.index t (1 : Fin 2) * 32 + 1 * (y 1).val = (y 1).val; omega
  have r4 : ∀ y : S1x32.Idx, ((cfg0.win 4).blk t).view.emb y = y := fun y => by
    funext a; apply Fin.ext
    match a with
    | ⟨0, _⟩ => show win0_4.index t (0 : Fin 2) * 1 + 1 * (y 0).val = (y 0).val; omega
    | ⟨1, _⟩ => show win0_4.index t (1 : Fin 2) * 32 + 1 * (y 1).val = (y 1).val; omega
  have r5 : ∀ y : S32x32.Idx, ((cfg0.win 5).blk t).view.emb y = y := fun y => by
    funext a; apply Fin.ext
    match a with
    | ⟨0, _⟩ => show win0_5.index t (0 : Fin 2) * 32 + 1 * (y 0).val = (y 0).val; omega
    | ⟨1, _⟩ => show win0_5.index t (1 : Fin 2) * 32 + 1 * (y 1).val = (y 1).val; omega
  have r6 : ∀ y : S1x32.Idx, ((cfg0.win 6).blk t).view.emb y = y := fun y => by
    funext a; apply Fin.ext
    match a with
    | ⟨0, _⟩ => show win0_6.index t (0 : Fin 2) * 1 + 1 * (y 0).val = (y 0).val; omega
    | ⟨1, _⟩ => show win0_6.index t (1 : Fin 2) * 32 + 1 * (y 1).val = (y 1).val; omega
  have r7 : ∀ y : S32x32.Idx, ((cfg0.win 7).blk t).view.emb y = y := fun y => by
    funext a; apply Fin.ext
    match a with
    | ⟨0, _⟩ => show win0_7.index t (0 : Fin 2) * 32 + 1 * (y 0).val = (y 0).val; omega
    | ⟨1, _⟩ => show win0_7.index t (1 : Fin 2) * 32 + 1 * (y 1).val = (y 1).val; omega
  have r8 : ∀ y : S1x32.Idx, ((cfg0.win 8).blk t).view.emb y = y := fun y => by
    funext a; apply Fin.ext
    match a with
    | ⟨0, _⟩ => show win0_8.index t (0 : Fin 2) * 1 + 1 * (y 0).val = (y 0).val; omega
    | ⟨1, _⟩ => show win0_8.index t (1 : Fin 2) * 32 + 1 * (y 1).val = (y 1).val; omega
  refine (Cert.KernelEntry.block_msg (V m c main_v6) (V m c main_v13) (V m c main_v15) (V m c main_arg2) (V m c main_v16)
    (V m c main_arg4) (V m c main_v17) (V m c main_arg6) (V m c main_v18)
    (iblk m c 0 t) (iblk m c 1 t) (iblk m c 2 t) (iblk m c 3 t) (iblk m c 4 t) (iblk m c 5 t) (iblk m c 6 t) (iblk m c 7 t)
    (iblk m c 8 t) (⟨t.val * 4000 + p.val, by omega⟩ : Fin 3200000) p q ?_ ?_ ?_ ?_ ?_ ?_ ?_ ?_ ?_).trans ?_
  · intro d
    show V m c main_v6 (((cfg0.win 0).blk t).view.emb (ix2 p d)) = _
    rw [r0 d]
  · intro d
    show V m c main_v13 (((cfg0.win 1).blk t).view.emb (ix2 p d)) = _
    rw [r1 d]
  · show V m c main_v15 (((cfg0.win 2).blk t).view.emb (ix2 p (0 : Fin 1))) = _
    rw [r2]
  · funext y
    show V m c main_arg2 (((cfg0.win 3).blk t).view.emb y) = _
    rw [r3 y]
  · funext y
    show V m c main_v16 (((cfg0.win 4).blk t).view.emb y) = _
    rw [r4 y]
  · funext y
    show V m c main_arg4 (((cfg0.win 5).blk t).view.emb y) = _
    rw [r5 y]
  · funext y
    show V m c main_v17 (((cfg0.win 6).blk t).view.emb y) = _
    rw [r6 y]
  · funext y
    show V m c main_arg6 (((cfg0.win 7).blk t).view.emb y) = _
    rw [r7 y]
  · funext y
    show V m c main_v18 (((cfg0.win 8).blk t).view.emb y) = _
    rw [r8 y]
  · rw [G_apply m c, r9]
    exact (cast_eq _ _).symm

/-- An index of the array is in point t's block iff each coordinate is in the block's range on its axis. -/
theorem mem_blk (t : Fin cfg0.N) (i : S3200000x32.Idx) :
    i ∈ ((cfg0.win 9).blk t).view.set ↔ ∀ a : Fin 2, win0_9.index t a * S4000x32.size a ≤ (i a).val ∧ (i a).val < win0_9.index t a * S4000x32.size a + S4000x32.size a := by
  show i ∈ ((View.whole main_v19).slice (win0_9.rect t)).set ↔ _
  rw [View.set_slice_whole, Rect.mem_set_unit]
  exact Iff.rfl

/-- The 800 blocks tile the rows: edge e lies in the block of point e / 4000. -/
theorem cover (i : S3200000x32.Idx) :
    ∃ t : Fin cfg0.N, (cfg0.win 9).flush t = true ∧ i ∈ ((cfg0.win 9).blk t).view.set := by
  have hi0 : (i 0).val < 3200000 := (i 0).isLt
  have hi1 : (i 1).val < 32 := (i 1).isLt
  have hN : (i 0).val / 4000 < cfg0.N := Nat.lt_of_lt_of_eq (by omega : (i 0).val / 4000 < 800) (N_0 : cfg0.N = 800).symm
  obtain ⟨-, -, -, -, -, -, -, -, -, -, -, -, -, -, -, -, -, -, a90, a91⟩ := idx_facts ⟨(i 0).val / 4000, hN⟩
  refine ⟨⟨(i 0).val / 4000, hN⟩, flush0_9 _, ?_⟩
  rw [mem_blk]
  intro a
  match a with
  | ⟨0, _⟩ =>
    show win0_9.index ⟨(i 0).val / 4000, hN⟩ (0 : Fin 2) * 4000 ≤ (i 0).val ∧ (i 0).val < win0_9.index ⟨(i 0).val / 4000, hN⟩ (0 : Fin 2) * 4000 + 4000
    rw [a90]
    show (i 0).val / 4000 * 4000 ≤ (i 0).val ∧ (i 0).val < (i 0).val / 4000 * 4000 + 4000
    omega
  | ⟨1, _⟩ =>
    show win0_9.index ⟨(i 0).val / 4000, hN⟩ (1 : Fin 2) * 32 ≤ (i 1).val ∧ (i 1).val < win0_9.index ⟨(i 0).val / 4000, hN⟩ (1 : Fin 2) * 32 + 32
    rw [a91]
    omega

/-- THE ARRAY after the region: the message array of the arrays as the region finds them. -/
theorem final (c : Dev nD) : (dats m 0 c).arrAt 9 cfg0.N = G m c :=
  (dats m 0 c).arrAt_eq_of_cover 9 (G m c) (fun t _ => flushed_eq m c t) (cover)

end Cert.KernelArray

end
-- ==== Proof.HostPrefix.lean ====
/-
  The arrays the region finds, in terms of the program's inputs.

  Before the region the kernel's program gathers the receiver and sender feature rows out of the node features, lays
  the duplicated couplings out as a column, and views the three bias vectors as one-row matrices. The reference does
  the same gathers and builds the same column, so the first three are the reference's own intermediate values of the
  same inputs; a one-row view of a vector read back as a vector is the vector.
-/
import proofs.«138649_j80204219285966_2_alg».proof.Proof.Gen.KernelIdeal.Frame
import proofs.«138649_j80204219285966_2_alg».proof.Proof.Gen.ReferenceIdeal.Read
import proofs.«138649_j80204219285966_2_alg».proof.Proof.EdgeSpec
import Idealize.ShloMosaic.Lib.Pipeline.Value
import Idealize.ShloMosaic.Lib.StableHlo.Run
import Idealize.ShloMosaic.Lib.ValueIdx
import Idealize.ShloMosaic.Lib.ValueLayout

noncomputable section

namespace Cert.HostPrefix

open Idealize.ShloMosaic Idealize.ShloMosaic.ValueIdx Cert.EdgeSpec

section Kernel
open Cert.KernelIdeal Cert.KernelIdeal.Gen Idealize.ShloMosaic.TcCoe Idealize.SL.Sem Idealize.ShloMosaic.StableHlo
open Idealize.ShloMosaic.Pipeline (Dat Cfg Window)

variable (m : (ℓ : Loc nD τ sig) → Buf (Elt Ideal) ℓ)

/-- The receiver features the region finds are the reference's gather of the same node features and indices. -/
theorem V_rf (c : Dev nD) :
    (V m c main_v6 : S3200000x32.Idx → EReal)
      = Cert.ReferenceIdeal.Read.val_main_v6 (F := Ideal) (m ((c : Thread nD τ).loc main_arg0)) (m ((c : Thread nD τ).loc main_arg9)) := by
  show StableHlo.after hostOps0 (fun b => m (c, b)) (Proc.devRef .tc main_v6) = _
  after_results
  rfl

/-- The sender features likewise. -/
theorem V_sf (c : Dev nD) :
    (V m c main_v13 : S3200000x32.Idx → EReal)
      = Cert.ReferenceIdeal.Read.val_main_v13 (F := Ideal) (m ((c : Thread nD τ).loc main_arg0)) (m ((c : Thread nD τ).loc main_arg8)) := by
  show StableHlo.after hostOps0 (fun b => m (c, b)) (Proc.devRef .tc main_v13) = _
  after_results
  rfl

/-- The coupling column likewise. -/
theorem V_mc (c : Dev nD) :
    (V m c main_v15 : S3200000x1.Idx → EReal)
      = Cert.ReferenceIdeal.Read.val_main_v15 (F := Ideal) (m ((c : Thread nD τ).loc main_arg1)) := by
  show StableHlo.after hostOps0 (fun b => m (c, b)) (Proc.devRef .tc main_v15) = _
  after_results
  rfl

/-- A bias vector viewed as a one-row matrix and read back as a vector is the vector. -/
theorem rowVec_shapeCast (x : S32.Idx → EReal) : rowVec (shapeCast S1x32 x shapeCasts_S32_S1x32) = x := by
  funext i
  obtain ⟨o, rfl⟩ : ∃ o : Fin 32, i = ix1 o := ⟨i 0, eq_ix1 i⟩
  show shapeCast S1x32 x shapeCasts_S32_S1x32 (ix2 (0 : Fin 1) o) = _
  exact shapeCast_a_1a_apply x shapeCasts_S32_S1x32 (0 : Fin 1) o

theorem V_b1 (c : Dev nD) : rowVec (V m c main_v16) = (m ((c : Thread nD τ).loc main_arg3) : S32.Idx → EReal) := by
  have e : (V m c main_v16 : S1x32.Idx → EReal) = shapeCast S1x32 (m ((c : Thread nD τ).loc main_arg3)) shapeCasts_S32_S1x32 := by
    show StableHlo.after hostOps0 (fun b => m (c, b)) (Proc.devRef .tc main_v16) = _
    after_results
    rfl
  rw [e, rowVec_shapeCast]

theorem V_bq (c : Dev nD) : rowVec (V m c main_v17) = (m ((c : Thread nD τ).loc main_arg5) : S32.Idx → EReal) := by
  have e : (V m c main_v17 : S1x32.Idx → EReal) = shapeCast S1x32 (m ((c : Thread nD τ).loc main_arg5)) shapeCasts_S32_S1x32 := by
    show StableHlo.after hostOps0 (fun b => m (c, b)) (Proc.devRef .tc main_v17) = _
    after_results
    rfl
  rw [e, rowVec_shapeCast]

theorem V_bk (c : Dev nD) : rowVec (V m c main_v18) = (m ((c : Thread nD τ).loc main_arg7) : S32.Idx → EReal) := by
  have e : (V m c main_v18 : S1x32.Idx → EReal) = shapeCast S1x32 (m ((c : Thread nD τ).loc main_arg7)) shapeCasts_S32_S1x32 := by
    show StableHlo.after hostOps0 (fun b => m (c, b)) (Proc.devRef .tc main_v18) = _
    after_results
    rfl
  rw [e, rowVec_shapeCast]

end Kernel

end Cert.HostPrefix

end
-- ==== Proof.Tail.lean ====
/-
  What both programs do with the per-edge messages.

  Each edge's message row is added into the row of its receiving node in an array of zeros (a segment sum over the
  receiver indices), and the sums are cut off below at zero. It is one function `tail` of the message array and the
  receiver indices; the two programs are compared by the message arrays they feed it, and it is never opened.
-/
import proofs.«138649_j80204219285966_2_alg».proof.Proof.Gen.ReferenceIdeal.Read

noncomputable section

namespace Cert.Tail

open Idealize.ShloMosaic

/-- Scatter-add each edge's row into its receiver's row of a zero array, then the positive part. -/
def tail (msgs : (⟨Cert.ReferenceIdeal.S3200000x32, .f32⟩ : BufTy).Contents (Elt Ideal))
    (recv : (⟨Cert.ReferenceIdeal.S3200000, .i32⟩ : BufTy).Contents (Elt Ideal)) :
    (⟨Cert.ReferenceIdeal.S100000x32, .f32⟩ : BufTy).Contents (Elt Ideal) :=
  maximumf (F := Ideal) (φ := .f32)
    (Host.scatterAdd (F := Ideal) Cert.ReferenceIdeal.scatter_S100000x32_S3200000x1_S3200000x32_1_0_0_1
      (Cert.ReferenceIdeal.Read.val_main_v41 (F := Ideal)) (Cert.ReferenceIdeal.Read.val_main_v42 (F := Ideal) recv) msgs)
    (Cert.ReferenceIdeal.Read.val_main_call1_v0 (F := Ideal))

open Cert.ReferenceIdeal Cert.ReferenceIdeal.Gen Cert.ReferenceIdeal.Read

/-- The reference's result is the tail of its per-edge messages. -/
theorem ref_tail (x0 : (⟨S100000x32, .f32⟩ : BufTy).Contents (Elt Ideal)) (x1 : (⟨S1600000, .f32⟩ : BufTy).Contents (Elt Ideal))
    (x2 : (⟨S65x32, .f32⟩ : BufTy).Contents (Elt Ideal)) (x3 : (⟨S32, .f32⟩ : BufTy).Contents (Elt Ideal))
    (x4 : (⟨S32x32, .f32⟩ : BufTy).Contents (Elt Ideal)) (x5 : (⟨S32, .f32⟩ : BufTy).Contents (Elt Ideal))
    (x6 : (⟨S32x32, .f32⟩ : BufTy).Contents (Elt Ideal)) (x7 : (⟨S32, .f32⟩ : BufTy).Contents (Elt Ideal))
    (x8 x9 : (⟨S3200000, .i32⟩ : BufTy).Contents (Elt Ideal)) :
    val_main_v44 (F := Ideal) x0 x1 x2 x3 x4 x5 x6 x7 x8 x9
      = tail (val_main_v40 (F := Ideal) x0 x1 x2 x3 x4 x5 x6 x7 x8 x9) x9 := by
  unfold val_main_v44 val_main_v43 tail
  rfl

end Cert.Tail

end
-- ==== Proof.KernelTail.lean ====
/-
  The kernel program's result in terms of what the region leaves.

  After the region the program scatter-adds the region's output array by the receiver indices into zeros and takes the
  positive part: the shared function `tail` of that array and of the receiver indices as launched. The lines after the
  region find the output array where the region left it and the receiver indices untouched; the positive part is taken
  inside a called function, whose typed views of its buffers are identities.
-/
import proofs.«138649_j80204219285966_2_alg».proof.Proof.Gen.KernelIdeal.Frame
import proofs.«138649_j80204219285966_2_alg».proof.Proof.Tail
import Idealize.ShloMosaic.Lib.Pipeline.Value
import Idealize.ShloMosaic.Lib.StableHlo.Run

noncomputable section

namespace Cert.KernelTail

open Idealize.ShloMosaic Cert.Tail
open Cert.KernelIdeal Cert.KernelIdeal.Gen Idealize.ShloMosaic.TcCoe Idealize.SL.Sem Idealize.ShloMosaic.StableHlo
open Idealize.ShloMosaic.Pipeline (Dat Cfg Window)

variable (m : (ℓ : Loc nD τ sig) → Buf (Elt Ideal) ℓ)

/-- The lines after the region find the region's output array as the region left it. -/
theorem read_out (c : Dev nD) :
    Pipeline.withArrays (cfgs 0).spec c (V0 m c) (fun w => (dats m 0 c).arrAt w (cfgs 0).N) (Proc.devRef .tc main_v19)
      = (dats m 0 c).arrAt 9 cfg0.N :=
  Pipeline.withArrays_arr spec0 launch0.win.arr_inj c _ _ 9

/-- And the receiver indices as launched: no window stages them and no earlier line writes them. -/
theorem read_recv (c : Dev nD) :
    Pipeline.withArrays (cfgs 0).spec c (V0 m c) (fun w => (dats m 0 c).arrAt w (cfgs 0).N) (Proc.devRef .tc main_arg9)
      = m ((c : Thread nD τ).loc main_arg9) :=
  (Pipeline.withArrays_of_ne _ c (V0 m c) _ main_arg9 (by exact (by decide : ∀ w, Pipeline.arrRef spec0 w ≠ main_arg9))).trans
    (V_main_arg9 m c)

/-- A tensor value stored in its buffer and read back is itself. -/
theorem ofBuf_toBuf {T : BufTy} (x : TRef sig T) (v : T.Contents (Elt Ideal)) : x.ofBuf (x.toBuf v) = v := by
  obtain ⟨r, h, h2, h3⟩ := x
  subst h
  rfl

/-- The result buffer holds a value of its own type: storing into it changes nothing. -/
theorem toBuf_result (h1 : (main_v23 : Ref sig .tc).ty = ⟨S100000x32, .f32⟩) (h2 : (main_v23 : Ref sig .tc).space ≠ .host)
    (h3 : (main_v23 : Ref sig .tc).isScoped = false) (v : (⟨S100000x32, .f32⟩ : BufTy).Contents (Elt Ideal)) :
    ((TRef.of main_v23 h1 h2 h3).toBuf v : S100000x32.Idx → EReal) = v := rfl

/-- Likewise reading the segment sum's buffer at its own type. -/
theorem ofBuf_scatter (h1 : (main_v22 : Ref sig .tc).ty = ⟨S100000x32, .f32⟩) (h2 : (main_v22 : Ref sig .tc).space ≠ .host)
    (h3 : (main_v22 : Ref sig .tc).isScoped = false) (v : (main_v22 : Ref sig .tc).ty.Contents (Elt Ideal)) :
    ((TRef.of main_v22 h1 h2 h3).ofBuf v : S100000x32.Idx → EReal) = v := rfl

/-- The program's result: the tail of the region's output array and the receiver indices. -/
theorem kernel_tail (c : Dev nD) :
    (Pipeline.afterTail₀ cfgs (dats m) 0 (V0 m) [hostOps1, hostOps1_1] c main_v23 : S100000x32.Idx → EReal)
      = tail ((dats m 0 c).arrAt 9 cfg0.N) (m ((c : Thread nD τ).loc main_arg9)) := by
  unfold Pipeline.afterTail₀
  simp only [hostOps1, hostOps1_1, List.flatten_cons, List.flatten_nil, List.append_nil, List.cons_append, List.nil_append]
  after_results
  rw [read_out m c, read_recv m c]
  -- the two arrays are carried as variables: the tail is compared operation by operation, never evaluated
  generalize (dats m 0 c).arrAt 9 cfg0.N = A
  generalize m ((c : Thread nD τ).loc main_arg9) = r9
  rw [toBuf_result, ofBuf_scatter, ofBuf_toBuf, ofBuf_toBuf]
  unfold tail Cert.ReferenceIdeal.Read.val_main_v41 Cert.ReferenceIdeal.Read.val_main_v42 Cert.ReferenceIdeal.Read.val_main_call1_v0
    Cert.ReferenceIdeal.Read.val_main_cst_5 Cert.ReferenceIdeal.Read.val_main_call1_cst
  rfl

end Cert.KernelTail

end
-- ==== Proof.KernelRun.lean ====
/-
  The kernel program's run, with its result named.

  Every weakly fair execution of the idealized kernel program terminates with its result array at the tail (segment
  sum by receiver, positive part) of the message array of the program's inputs — the gathers and the coupling column
  being the reference's own intermediate values of those inputs — and with every argument array unchanged.
-/
import proofs.«138649_j80204219285966_2_alg».proof.Proof.KernelArray
import proofs.«138649_j80204219285966_2_alg».proof.Proof.HostPrefix
import proofs.«138649_j80204219285966_2_alg».proof.Proof.KernelTail

noncomputable section

namespace Cert.KernelRun

open Idealize.ShloMosaic Cert.EdgeSpec Cert.Tail
open Cert.KernelIdeal Cert.KernelIdeal.Gen Idealize.ShloMosaic.TcCoe Idealize.SL.Sem
open Idealize.ShloMosaic.Pipeline (Dat Cfg Window)

variable (m : (ℓ : Loc nD τ sig) → Buf (Elt Ideal) ℓ) (ρ : Dev nD → PrngReg)

/-- The message array of the program's inputs on core `c`. -/
def msgs (c : Dev nD) : S3200000x32.Idx → EReal :=
  Msg (Cert.ReferenceIdeal.Read.val_main_v6 (F := Ideal) (m ((c : Thread nD τ).loc main_arg0)) (m ((c : Thread nD τ).loc main_arg9)))
    (Cert.ReferenceIdeal.Read.val_main_v13 (F := Ideal) (m ((c : Thread nD τ).loc main_arg0)) (m ((c : Thread nD τ).loc main_arg8)))
    (Cert.ReferenceIdeal.Read.val_main_v15 (F := Ideal) (m ((c : Thread nD τ).loc main_arg1)))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))

/-- The program's result on core `c`. -/
def result (c : Dev nD) : S100000x32.Idx → EReal := tail (msgs m c) (m ((c : Thread nD τ).loc main_arg9))

/-- What the region leaves is the message array of the program's inputs: the arrays it finds are the gathers, the
    coupling column, the weights as launched, and the biases viewed as rows. -/
theorem G_inputs (c : Dev nD) : Cert.KernelArray.G m c = msgs m c := by
  funext i
  rw [← Cert.KernelArray.G_apply m c i, Cert.HostPrefix.V_rf, Cert.HostPrefix.V_sf, Cert.HostPrefix.V_mc,
    Cert.HostPrefix.V_b1, Cert.HostPrefix.V_bq, Cert.HostPrefix.V_bk, V_main_arg2 m c, V_main_arg4 m c, V_main_arg6 m c]
  rfl

/-- The run: the result array at `result`, the arguments unchanged. -/
theorem run : θ_run defs (onTc (τ := τ) (main (F := Ideal))) ⟨m, fun _ => 0, ρ⟩ (fun r => ∀ c : Dev nD,
      r.2.mem ((c.tc : Thread nD τ).loc main_v23) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c =>
    ⟨((h c).2 main_v23 (Pipeline.mem_restRefs_of main_v23 (by decide) (by decide))).trans
        ((Cert.KernelTail.kernel_tail m c).trans (by rw [Cert.KernelArray.final m c, G_inputs m c]; rfl)),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      ((h c).1 3).trans (((dats m 0 c).arrAt_in 3 rfl _).trans ((A_eq m c 3).trans (V_main_arg2 m c))),
      (((h c).2 main_arg3 (Pipeline.mem_restRefs_of main_arg3 (by decide) (by decide))).trans (W_main_arg3 m (dats m) c)),
      ((h c).1 5).trans (((dats m 0 c).arrAt_in 5 rfl _).trans ((A_eq m c 5).trans (V_main_arg4 m c))),
      (((h c).2 main_arg5 (Pipeline.mem_restRefs_of main_arg5 (by decide) (by decide))).trans (W_main_arg5 m (dats m) c)),
      ((h c).1 7).trans (((dats m 0 c).arrAt_in 7 rfl _).trans ((A_eq m c 7).trans (V_main_arg6 m c))),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c))⟩)
    (run_main m ρ)

end Cert.KernelRun

end
-- ==== Proof.RefEntry.lean ====
/-
  The reference's per-edge messages (its value before the scatter-add) read at one entry.

  The reference stacks receiver features, sender features and the coupling into one 65-wide row and multiplies by the
  whole weight matrix; split at columns 32 and 64 that inner product is the three contributions the gated message is
  written with. Its query, key, lane sum and its spelt-out `1 / (1 + exp (-a))` are the same numbers as the kernel's,
  the last being the logistic function by definition on the extended reals.
-/
import proofs.«138649_j80204219285966_2_alg».proof.Proof.Gen.ReferenceIdeal.Read
import proofs.«138649_j80204219285966_2_alg».proof.Proof.LibRowOps
import proofs.«138649_j80204219285966_2_alg».proof.Proof.EdgeSpec
import Idealize.ShloMosaic.Lib.ValueIdx
import Idealize.ShloMosaic.Lib.Pipeline.Value

noncomputable section

open scoped BigOperators

namespace Cert.RefEntry

open Cert.ReferenceIdeal Cert.ReferenceIdeal.Gen Cert.ReferenceIdeal.Read Idealize.ShloMosaic Idealize.ShloMosaic.ValueIdx
  Cert.EdgeSpec

variable (x0 : (⟨S100000x32, .f32⟩ : BufTy).Contents (Elt Ideal)) (x1 : (⟨S1600000, .f32⟩ : BufTy).Contents (Elt Ideal))
  (x2 : (⟨S65x32, .f32⟩ : BufTy).Contents (Elt Ideal)) (x3 : (⟨S32, .f32⟩ : BufTy).Contents (Elt Ideal))
  (x4 : (⟨S32x32, .f32⟩ : BufTy).Contents (Elt Ideal)) (x5 : (⟨S32, .f32⟩ : BufTy).Contents (Elt Ideal))
  (x6 : (⟨S32x32, .f32⟩ : BufTy).Contents (Elt Ideal)) (x7 : (⟨S32, .f32⟩ : BufTy).Contents (Elt Ideal))
  (x8 x9 : (⟨S3200000, .i32⟩ : BufTy).Contents (Elt Ideal))

/-- The binary32 word of the number one. -/
theorem ofBits_one_f32 : Ideal.ofBits .f32 0x3F800000#32 = 1 := by
  simp [Ideal.ofBits, Ideal.ieee, -EReal.coe_mul]
  norm_num

/-- Columns 0..31 of the stacked edge features are the receiver's features. -/
theorem feat_R (e : Fin 3200000) (d : Fin 32) :
    val_main_v16 (F := Ideal) x0 x1 x8 x9 (ix2 e (rowR d)) = val_main_v6 (F := Ideal) x0 x9 (ix2 e d) := by
  unfold val_main_v16
  refine concatenate_apply_piece (1 : Fin 2) _ _ (ix2 e (rowR d)) 0 ?_ S3200000x32 _ ?_ rfl 0 ?_ (ix2 e d)
    (fun b hb => ?_) ?_
  · show (0 : ℕ) < 3; omega
  · rfl
  · rfl
  · match b with
    | ⟨0, _⟩ => rfl
    | ⟨1, _⟩ => exact absurd rfl hb
  · show 0 + d.val = d.val; omega

/-- Columns 32..63 are the sender's features. -/
theorem feat_S (e : Fin 3200000) (d : Fin 32) :
    val_main_v16 (F := Ideal) x0 x1 x8 x9 (ix2 e (rowS d)) = val_main_v13 (F := Ideal) x0 x8 (ix2 e d) := by
  unfold val_main_v16
  refine concatenate_apply_piece (1 : Fin 2) _ _ (ix2 e (rowS d)) 1 ?_ S3200000x32 _ ?_ rfl 32 ?_ (ix2 e d)
    (fun b hb => ?_) ?_
  · show (1 : ℕ) < 3; omega
  · rfl
  · rfl
  · match b with
    | ⟨0, _⟩ => rfl
    | ⟨1, _⟩ => exact absurd rfl hb
  · show 32 + d.val = 32 + d.val; rfl

/-- Column 64 is the coupling. -/
theorem feat_C (e : Fin 3200000) :
    val_main_v16 (F := Ideal) x0 x1 x8 x9 (ix2 e rowC) = val_main_v15 (F := Ideal) x1 (ix2 e (0 : Fin 1)) := by
  unfold val_main_v16
  refine concatenate_apply_piece (1 : Fin 2) _ _ (ix2 e rowC) 2 ?_ S3200000x1 _ ?_ rfl 64 ?_ (ix2 e (0 : Fin 1))
    (fun b hb => ?_) ?_
  · show (2 : ℕ) < 3; omega
  · rfl
  · rfl
  · match b with
    | ⟨0, _⟩ => rfl
    | ⟨1, _⟩ => exact absurd rfl hb
  · show 64 + 0 = 64; rfl

/-- The first layer before its cut-off: the 65-wide inner product split into its three parts, plus the bias. -/
theorem ref_layer1 (e : Fin 3200000) (o : Fin 32) :
    val_main_v20 (F := Ideal) x0 x1 x2 x3 x8 x9 (ix2 e o)
      = ((((∑ d : Fin 32, val_main_v6 (F := Ideal) x0 x9 (ix2 e d) * x2 (ix2 (rowR d) o))
            + (∑ d : Fin 32, val_main_v13 (F := Ideal) x0 x8 (ix2 e d) * x2 (ix2 (rowS d) o)))
          + val_main_v15 (F := Ideal) x1 (ix2 e (0 : Fin 1)) * x2 (ix2 rowC o))) + x3 (ix1 o) := by
  unfold val_main_v20 val_main_v17 val_main_v19 val_main_v18
  refine (Cert.LibRowOps.host_affine_apply _ rfl none _ x2 x3 _ _ e o).trans ?_
  rw [sum65_split]
  simp only [feat_R, feat_S, feat_C]

/-- The query: sender features times the query weights, plus the query bias. -/
theorem ref_query (e : Fin 3200000) (j : Fin 32) :
    val_main_v25 (F := Ideal) x0 x4 x5 x8 (ix2 e j)
      = (∑ d : Fin 32, val_main_v13 (F := Ideal) x0 x8 (ix2 e d) * x4 (ix2 d j)) + x5 (ix1 j) := by
  unfold val_main_v25 val_main_v22 val_main_v24 val_main_v23
  exact Cert.LibRowOps.host_affine_apply _ rfl none _ x4 x5 _ _ e j

/-- The key: receiver features times the key weights, plus the key bias. -/
theorem ref_key (e : Fin 3200000) (j : Fin 32) :
    val_main_v29 (F := Ideal) x0 x6 x7 x9 (ix2 e j)
      = (∑ d : Fin 32, val_main_v6 (F := Ideal) x0 x9 (ix2 e d) * x6 (ix2 d j)) + x7 (ix1 j) := by
  unfold val_main_v29 val_main_v26 val_main_v28 val_main_v27
  exact Cert.LibRowOps.host_affine_apply _ rfl none _ x6 x7 _ _ e j

/-- The gate: `1 / (1 + exp (-a))` of the lane sum `a` of query times key is the logistic function of `a`. -/
theorem ref_gate (e : Fin 3200000) (u : Fin 1) :
    val_main_v38 (F := Ideal) x0 x4 x5 x6 x7 x8 x9 (ix2 e u)
      = Ideal.logistic (∑ j : Fin 32, val_main_v25 (F := Ideal) x0 x4 x5 x8 (ix2 e j) * val_main_v29 (F := Ideal) x0 x6 x7 x9 (ix2 e j)) := by
  rw [val_main_v38_apply, val_main_v37_apply, val_main_cst_4_apply, val_main_v36_apply, val_main_v35_apply,
    val_main_cst_3_apply, val_main_v34_apply, val_main_v33_apply, val_main_v32_apply]
  have hidx : idx_main_v32 (ix2 e u) = ix1 e := funext fun a => by match a with | ⟨0, _⟩ => rfl
  rw [hidx]
  unfold val_main_v31
  rw [Cert.LibRowOps.host_rowsum_apply _ _ reducesTo_S3200000x32_S3200000_d1 (by decide) h_S_ e]
  show Ideal.div (Ideal.ofBits .f32 0x3F800000#32)
      (Ideal.ofBits .f32 0x3F800000#32 + Ideal.exp (-(Ideal.ofBits .f32 0x00000000#32 + ∑ q : Fin 32, val_main_v30 (F := Ideal) x0 x4 x5 x6 x7 x8 x9 (ix2 e q)))) = _
  rw [ofBits_one_f32, Ideal.ofBits_zero_f32, zero_add]
  rfl

/-- Entry (e, o) of the reference's per-edge messages is the gated message of edge e at output feature o. -/
theorem ref_entry (e : Fin 3200000) (o : Fin 32) :
    val_main_v40 (F := Ideal) x0 x1 x2 x3 x4 x5 x6 x7 x8 x9 (ix2 e o)
      = edgeMsg (fun d => val_main_v6 (F := Ideal) x0 x9 (ix2 e d)) (fun d => val_main_v13 (F := Ideal) x0 x8 (ix2 e d))
          (val_main_v15 (F := Ideal) x1 (ix2 e (0 : Fin 1))) (fun k q => x2 (ix2 k q)) (fun q => x3 (ix1 q))
          (fun d j => x4 (ix2 d j)) (fun j => x5 (ix1 j)) (fun d j => x6 (ix2 d j)) (fun j => x7 (ix1 j)) o := by
  rw [val_main_v40_apply, val_main_v21_apply, val_main_v39_apply, val_main_call0_v0_apply, val_main_call0_cst_apply]
  have hidx : idx_main_v39 (ix2 e o) = ix2 e (0 : Fin 1) := funext fun a => by
    match a with
    | ⟨0, _⟩ => rfl
    | ⟨1, _⟩ => rfl
  rw [hidx, ref_gate, ref_layer1]
  simp only [ref_query, ref_key]
  show max _ (Ideal.ofBits .f32 0x00000000#32) * _ = _
  rw [Ideal.ofBits_zero_f32]
  rfl

/-- The reference's per-edge messages, as a whole array, are `Msg` of its gathered features, its coupling column and the
    layer's parameters. -/
theorem ref_msg :
    val_main_v40 (F := Ideal) x0 x1 x2 x3 x4 x5 x6 x7 x8 x9
      = Msg (val_main_v6 (F := Ideal) x0 x9) (val_main_v13 (F := Ideal) x0 x8) (val_main_v15 (F := Ideal) x1) x2 x3 x4 x5 x6 x7 := by
  funext i
  obtain ⟨e, o, rfl⟩ : ∃ (e : Fin 3200000) (o : Fin 32), i = ix2 e o := ⟨i 0, i 1, eq_ix2 i⟩
  rw [Msg_ix2]
  exact ref_entry x0 x1 x2 x3 x4 x5 x6 x7 x8 x9 e o

end Cert.RefEntry

end
-- ==== Proof.lean ====
/-
  The certificate of a gated edge-message layer of a graph network, against its jnp reference.

  Both programs gather, for each of 3,200,000 edges, the feature rows of the edge's receiving and sending nodes, and
  carry one coupling per edge. The kernel computes each edge's message in blocks of 4000 edges: a first dense layer
  written as three contributions (receiver rows against the upper 32 rows of the weight matrix, sender rows against the
  middle 32, the coupling against the last row), its bias, a cut-off at zero, and a logistic gate of the inner product
  of a query and a key. The reference stacks the three pieces into one 65-wide row and multiplies once. On the extended
  reals a 65-term sum is the sum of its first 32, next 32 and last term (addition is commutative and associative there,
  infinities included), the narrowing to bfloat16 is the identity, and `1 / (1 + exp (-a))` is the logistic function
  by definition: so the two message arrays are one function `Msg` of the same gathered arrays, for every input, and
  the precondition is never opened. Both programs then apply the same segment sum by receiver and positive part
  (`tail`) to their message arrays.

  The three frames are the generated ones (the reference's is its generated run with the result dropped), and the
  idealization's ledger is empty.
-/
import proofs.«138649_j80204219285966_2_alg».proof.Defs
import proofs.«138649_j80204219285966_2_alg».proof.Proof.Gen.Kernel
import proofs.«138649_j80204219285966_2_alg».proof.Proof.Gen.Kernel.Skeleton
import proofs.«138649_j80204219285966_2_alg».proof.Proof.Gen.Kernel.Launch
import proofs.«138649_j80204219285966_2_alg».proof.Proof.Gen.Kernel.Points
import proofs.«138649_j80204219285966_2_alg».proof.Proof.Gen.Kernel.Frame
import proofs.«138649_j80204219285966_2_alg».proof.Proof.Gen.KernelIdeal
import proofs.«138649_j80204219285966_2_alg».proof.Proof.Gen.KernelIdeal.Skeleton
import proofs.«138649_j80204219285966_2_alg».proof.Proof.Gen.KernelIdeal.Launch
import proofs.«138649_j80204219285966_2_alg».proof.Proof.Gen.KernelIdeal.Points
import proofs.«138649_j80204219285966_2_alg».proof.Proof.Gen.KernelIdeal.Frame
import proofs.«138649_j80204219285966_2_alg».proof.Proof.Gen.ReferenceIdeal
import proofs.«138649_j80204219285966_2_alg».proof.Proof.Gen.Pre_finite_inputs
import proofs.«138649_j80204219285966_2_alg».proof.Proof.Gen.ReferenceIdeal.Run
import proofs.«138649_j80204219285966_2_alg».proof.Proof.Gen.ReferenceIdeal.Read
import proofs.«138649_j80204219285966_2_alg».proof.Proof.KernelRun
import proofs.«138649_j80204219285966_2_alg».proof.Proof.RefEntry
import proofs.«138649_j80204219285966_2_alg».proof.Proof.Tail
import Idealize.ShloMosaic.Adequacy
import Idealize.ShloMosaic.Init

noncomputable section

namespace Cert.Proof

open Idealize.ShloMosaic Idealize.SL.Sem Cert.Kernel

/-- The word-level kernel's frame: generated whole. -/
theorem frame_k : Cert.frame_Kernel := fun m ρ _ => Cert.Kernel.Gen.frame m ρ

/-- The idealized kernel's frame: generated whole. -/
theorem frame_ki : Cert.frame_KernelIdeal := fun m ρ _ => Cert.KernelIdeal.Gen.frame m ρ

/-- The reference's frame: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the inputs both idealized programs end with the tail of the same message array. -/
theorem algebraic : Cert.algebraic_KernelIdeal_ReferenceIdeal := by
  intro m ρ m' ρ' _ hagree
  refine ⟨fun c => Cert.KernelRun.result m c, Cert.KernelRun.run m ρ, ?_⟩
  refine (θ_run Cert.ReferenceIdeal.defs _ _).mono (fun _ h c =>
    ⟨((h c).1.trans (Cert.ReferenceIdeal.Read.val_main_v44_eq _ _ _ _ _ _ _ _ _ _)).trans ?_, (h c).2⟩)
    (Cert.ReferenceIdeal.Value.run (F := Ideal) m' ρ')
  obtain ⟨e0, e1, e2, e3, e4, e5, e6, e7, e8, e9⟩ := hagree c
  rw [Cert.Tail.ref_tail, Cert.RefEntry.ref_msg, e0, e1, e2, e3, e4, e5, e6, e7, e8, e9]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
